-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  main_v3
-- ==== Kernel.lean ====
abbrev S8192x3 : Shape := ⟨2, ![8192, 3]⟩
abbrev S3x8192 : Shape := ⟨2, ![3, 8192]⟩
abbrev S16x8x128 : Shape := ⟨3, ![16, 8, 128]⟩
abbrev S512x3 : Shape := ⟨2, ![512, 3]⟩
abbrev S3x512 : Shape := ⟨2, ![3, 512]⟩
abbrev S1x8x128 : Shape := ⟨3, ![1, 8, 128]⟩
abbrev S8x128 : Shape := ⟨2, ![8, 128]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S1 : Shape := ⟨1, ![1]⟩
abbrev S1x1 : Shape := ⟨2, ![1, 1]⟩
abbrev S16x1x1 : Shape := ⟨3, ![16, 1, 1]⟩
abbrev S16 : Shape := ⟨1, ![16]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S8192x3, .f32⟩
  | .hbm, ⟨1, _⟩ => ⟨S3x8192, .f32⟩
  | .hbm, ⟨2, _⟩ => ⟨S16x8x128, .f32⟩
  | .hbm, ⟨3, _⟩ => ⟨S16x1x1, .f32⟩
  | .hbm, ⟨4, _⟩ => ⟨S16, .f32⟩
  | .hbm, ⟨5, _⟩ => ⟨S_, .f32⟩
  | .hbm, ⟨6, _⟩ => ⟨S_, .f32⟩
  | .local _ .vmem, ⟨0, _⟩ => ⟨S512x3, .f32⟩
  | .local _ .vmem, ⟨1, _⟩ => ⟨S512x3, .f32⟩
  | .local _ .vmem, ⟨2, _⟩ => ⟨S3x512, .f32⟩
  | .local _ .vmem, ⟨3, _⟩ => ⟨S3x512, .f32⟩
  | .local _ .vmem, ⟨4, _⟩ => ⟨S1x8x128, .f32⟩
  | .local _ .vmem, ⟨5, _⟩ => ⟨S1x8x128, .f32⟩
  | .local _ .vmem, ⟨6, _⟩ => ⟨S8x128, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def k0_cond3 (i : grid0.Coords) : BitVec 1 :=
  let arg1 : BitVec 32 := BitVec.ofNat 32 (i 1).val
  let c15_i32 : BitVec 32 := 15#32
  let v6 : BitVec 1 := Scalar.cmpi .eq arg1 c15_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S8192x3_S3x8192_1_0 : S8192x3.Transposes [1, 0] S3x8192
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S512x3_S512x1_0_0 : ∀ a, (![0, 0] : Fin 2 → Nat) a + S512x1.size a ≤ S512x3.size a
  h_S512x1 : 0 < S512x1.numel
  inb_S512x3_S512x1_0_1 : ∀ a, (![0, 1] : Fin 2 → Nat) a + S512x1.size a ≤ S512x3.size a
  inb_S512x3_S512x1_0_2 : ∀ a, (![0, 2] : Fin 2 → Nat) a + S512x1.size a ≤ S512x3.size a
  inb_S3x512_S1x512_0_0 : ∀ a, (![0, 0] : Fin 2 → Nat) a + S1x512.size a ≤ S3x512.size a
  h_S1x512 : 0 < S1x512.numel
  shapeCasts_S1x512_S1x512 : S1x512.ShapeCasts S1x512
  inb_S3x512_S1x512_1_0 : ∀ a, (![1, 0] : Fin 2 → Nat) a + S1x512.size a ≤ S3x512.size a
  inb_S3x512_S1x512_2_0 : ∀ a, (![2, 0] : Fin 2 → Nat) a + S1x512.size a ≤ S3x512.size a
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reduces_S512x1_S1 : S512x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S16x8x128_S16x1x1_0_0_0 : S16x8x128.Slices ![0, 0, 0] S16x1x1
  shapeCasts_S16x1x1_S16 : S16x1x1.ShapeCasts S16
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S8192x3.size a
  hwx0_0 : ∀ i : grid0.Coords, EltTy.bits .f32 = 32 ∨ (Rect.block (s := S8192x3) S512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x512.size a ≤ S3x8192.size a
  hwx0_1 : ∀ i : grid0.Coords, EltTy.bits .f32 = 32 ∨ (Rect.block (s := S3x8192) S3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S16x8x128.size a
  hwx0_2 : ∀ i : grid0.Coords, EltTy.bits .f32 = 32 ∨ (Rect.block (s := S16x8x128) S1x8x128.size (cc0_transform_2 i) (hinb0_2 i)).WholeWords (EltTy.packing .f32)

variable [Facts₀]

abbrev win0_0 : Pipeline.Window sig grid0 :=
  Pipeline.Window.ofSpec (Memref.whole main_arg0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S8192x3 : Shape := ⟨2, ![8192, 3]⟩
abbrev S8192x1x3 : Shape := ⟨3, ![8192, 1, 3]⟩
abbrev S1x8192x3 : Shape := ⟨3, ![1, 8192, 3]⟩
abbrev S8192x8192x3 : Shape := ⟨3, ![8192, 8192, 3]⟩
abbrev S_ : Shape := ⟨0, ![]⟩
abbrev S8192x8192 : Shape := ⟨2, ![8192, 8192]⟩
abbrev S8192 : Shape := ⟨1, ![8192]⟩
abbrev S8192x1 : Shape := ⟨2, ![8192, 1]⟩
abbrev S1x8192 : Shape := ⟨2, ![1, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x1x3, .f32⟩
  | .hbm, ⟨2, _⟩ => ⟨S1x8192x3, .f32⟩
  | .hbm, ⟨3, _⟩ => ⟨S8192x8192x3, .f32⟩
  | .hbm, ⟨4, _⟩ => ⟨S8192x8192x3, .f32⟩
  | .hbm, ⟨5, _⟩ => ⟨S8192x8192x3, .f32⟩
  | .hbm, ⟨6, _⟩ => ⟨S8192x8192x3, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192, .i32⟩
  | .hbm, ⟨11, _⟩ => ⟨S8192x1, .i32⟩
  | .hbm, ⟨12, _⟩ => ⟨S1x8192, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S8192x8192, .f32⟩
  | .hbm, ⟨18, _⟩ => ⟨S8192x8192, .i1⟩
  | .hbm, ⟨19, _⟩ => ⟨S8192x8192, .i1⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S_, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst_0 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_1 : Ref sig .tc := ⟨.hbm, 20, rfl⟩
abbrev main_call0_v0 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_call1_v0 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  bcast_S8192x3_S8192x1x3_0_2 : S8192x3.BroadcastsInDim S8192x1x3 (![0, 2] : Fin 2 → Fin S8192x1x3.rank)
  bcast_S8192x3_S1x8192x3_1_2 : S8192x3.BroadcastsInDim S1x8192x3 (![1, 2] : Fin 2 → Fin S1x8192x3.rank)
  bcast_S8192x1x3_S8192x8192x3_0_1_2 : S8192x1x3.BroadcastsInDim S8192x8192x3 (![0, 1, 2] : Fin 3 → Fin S8192x8192x3.rank)
  bcast_S1x8192x3_S8192x8192x3_0_1_2 : S1x8192x3.BroadcastsInDim S8192x8192x3 (![0, 1, 2] : Fin 3 → Fin S8192x8192x3.rank)
  reducesTo_S8192x8192x3_S8192x8192_d2 : S8192x8192x3.ReducesTo [2] S8192x8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_

variable [Facts₀]

class Facts : Prop extends Facts₀ where

variable [Facts]
-- ==== Proof.CasesBits.lean ====
/-
  The points of the grid and what the body does at each: the three conditions in closed form, where the output
  window is idle, and the names of the buffers the body is handed.
-/
import proofs.«101726_j13400297963575_1_alg».proof.Proof.Gen.Kernel.Frame
import proofs.«101726_j13400297963575_1_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-!
  The grid is 16 × 16: point (i, j) handles the pairs whose first particle lies in block i (512 particles) and whose
  second lies in block j.  Three conditions on the point steer the body: at j = 0 the carried accumulator is set to
  zero; at j ≥ i (a block on or above the diagonal) the block's total is added to the accumulator's entry (0, 0);
  at j = 15 the accumulator is copied to the output block of row i.  Points are numbered row by row, t = 16 i + j,
  so the three conditions read t % 16 = 0, t / 16 ≤ t % 16 and t % 16 = 15.
-/

/-- The first column block: the accumulator is reset here. -/
abbrev isFirst (i : grid0.Coords) : Prop := (Scalar.cmpi .ne (Scalar.extui (Scalar.cmpi .eq (BitVec.ofNat 32 (i 1).val) 0#32)) 0#32) = 1#1
/-- The block lies on or above the diagonal: its pairs are added. -/
abbrev isUpper (i : grid0.Coords) : Prop := (Scalar.cmpi .ne (Scalar.extui (Scalar.cmpi .sge (BitVec.ofNat 32 (i 1).val) (BitVec.ofNat 32 (i 0).val))) 0#32) = 1#1
/-- The last column block: the accumulator is written out here. -/
abbrev isLast (i : grid0.Coords) : Prop := k0_cond3 i = 1#1

theorem isFirst_iff : ∀ t : Fin cfg0.N, isFirst (grid0.coords t) ↔ t.val % 16 = 0 :=
  (by decide +kernel : ∀ t : Fin grid0.N, isFirst (grid0.coords t) ↔ t.val % 16 = 0)
theorem isUpper_iff : ∀ t : Fin cfg0.N, isUpper (grid0.coords t) ↔ t.val / 16 ≤ t.val % 16 :=
  (by decide +kernel : ∀ t : Fin grid0.N, isUpper (grid0.coords t) ↔ t.val / 16 ≤ t.val % 16)
theorem isLast_iff : ∀ t : Fin cfg0.N, isLast (grid0.coords t) ↔ t.val % 16 = 15 :=
  (by decide +kernel : ∀ t : Fin grid0.N, isLast (grid0.coords t) ↔ t.val % 16 = 15)

/-- The point's coordinates: row block t / 16, column block t % 16. -/
theorem coords_row : ∀ t : Fin cfg0.N, ((grid0.coords t) 0).val = t.val / 16 :=
  (by decide +kernel : ∀ t : Fin grid0.N, ((grid0.coords t) 0).val = t.val / 16)
theorem coords_col : ∀ t : Fin cfg0.N, ((grid0.coords t) 1).val = t.val % 16 :=
  (by decide +kernel : ∀ t : Fin grid0.N, ((grid0.coords t) 1).val = t.val % 16)

/-- The two input windows are never idle. -/
theorem live0 : ∀ t : Fin cfg0.N, cfg0.idle 0 (grid0.coords t) = false := by decide +kernel
theorem live1 : ∀ t : Fin cfg0.N, cfg0.idle 1 (grid0.coords t) = false := by decide +kernel
/-- Away from the last column block the body stores nothing into the output block, and it is not written back there. -/
theorem idle2 : ∀ t : Fin cfg0.N, ¬isLast (grid0.coords t) → cfg0.idle 2 (grid0.coords t) = true := by decide +kernel
theorem noFlush2 : ∀ t : Fin cfg0.N, ¬isLast (grid0.coords t) → (cfg0.win 2).flush t = false := by decide +kernel
/-- At the last column block the output block is stored whole. -/
theorem live2 : ∀ t : Fin cfg0.N, isLast (grid0.coords t) → cfg0.idle 2 (grid0.coords t) = false := by decide +kernel

/-- Each window's current staging memref at point `t`, and its wholeness. -/
abbrev ms0 (t : Fin cfg0.N) : Memref sig .tc .vmem S512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8x128 .f32 := win0_2.stage (cfg0.slots t 2)
abbrev hs2 (t : Fin cfg0.N) : (ms2 t).IsWhole := hstage0_2 ((cfg0.slots t 2).cast nbuf0_2)
/-- The accumulator: a whole scratch buffer of the kernel's own, carried from point to point. -/
abbrev accM : Memref sig .tc .vmem S8x128 .f32 := Memref.whole cc0_scratch0
theorem accM_whole : (accM).IsWhole := Memref.isWhole_whole _
/-- The views through which the accumulator's and the output block's contents are stated. -/
abbrev accV : View sig .tc .vmem S8x128 .f32 := accM.view
abbrev outV : View sig .tc .vmem S1x8x128 .f32 := (Memref.whole cc0_stg2_0 : Memref sig .tc .vmem S1x8x128 .f32).view

/-- What the region may use beside its windows: the accumulator at some contents, and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Body

end
-- ==== Proof.RunABits.lean ====
/-
  The body at the grid's first point (row block 0, column block 0): the reset and the first addition.
  The body is three guarded steps in sequence — zero the accumulator at the first column block; at a block on or
  above the diagonal sum the block's pair energies and add the sum to the accumulator's entry (0, 0); at the last
  column block copy the accumulator to the output block — and what it stores is recorded as the list of stored
  pieces, latest first.
-/
import proofs.«101726_j13400297963575_1_alg».proof.Proof.Gen.Kernel.Frame
import proofs.«101726_j13400297963575_1_alg».proof.Proof.Gen.Kernel.Skeleton
import proofs.«101726_j13400297963575_1_alg».proof.Proof.CasesBits
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Row 0, column 0: the accumulator is zeroed and the diagonal block's total added to its entry (0, 0); whatever it held before is overwritten. -/
noncomputable def runA (c : Dev nD) (i : grid0.Coords) (arg2 : Memref sig .tc .vmem S512x3 .f32) (harg2 : arg2.IsWhole) (arg3 : Memref sig .tc .vmem S3x512 .f32) (harg3 : arg3.IsWhole) (arg4 : Memref sig .tc .vmem S1x8x128 .f32) (harg4 : arg4.IsWhole) (arg5 : Memref sig .tc .vmem S8x128 .f32) (harg5 : arg5.IsWhole) (hc1 : isFirst i) (hc2 : isUpper i) (hc3 : ¬isLast i)
    (x0 : Vec F S512x3 .f32) (x1 : Vec F S3x512 .f32) :
    { LS : List (View.Piece (Elt F) S8x128 .f32) //
      ∀ (xi : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__lj_kernel i arg2 harg2 arg3 harg3 arg4 harg4 arg5 harg5) K } := by
  refine ⟨?_, fun xi E K => ?run⟩
  case run =>
    simp only [cc0__lj_kernel_eq_skeleton]; unfold cc0__lj_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Body

end
-- ==== Proof.RunBBits.lean ====
/-
  The body at column block 0 of a row block below the first: the reset alone.
  The body is three guarded steps in sequence — zero the accumulator at the first column block; at a block on or
  above the diagonal sum the block's pair energies and add the sum to the accumulator's entry (0, 0); at the last
  column block copy the accumulator to the output block — and what it stores is recorded as the list of stored
  pieces, latest first.
-/
import proofs.«101726_j13400297963575_1_alg».proof.Proof.Gen.Kernel.Frame
import proofs.«101726_j13400297963575_1_alg».proof.Proof.Gen.Kernel.Skeleton
import proofs.«101726_j13400297963575_1_alg».proof.Proof.CasesBits
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Column 0 of a later row: the accumulator is zeroed; the block lies below the diagonal and adds nothing. -/
noncomputable def runB (c : Dev nD) (i : grid0.Coords) (arg2 : Memref sig .tc .vmem S512x3 .f32) (harg2 : arg2.IsWhole) (arg3 : Memref sig .tc .vmem S3x512 .f32) (harg3 : arg3.IsWhole) (arg4 : Memref sig .tc .vmem S1x8x128 .f32) (harg4 : arg4.IsWhole) (arg5 : Memref sig .tc .vmem S8x128 .f32) (harg5 : arg5.IsWhole) (hc1 : isFirst i) (hc2 : ¬isUpper i) (hc3 : ¬isLast i)
    (x0 : Vec F S512x3 .f32) (x1 : Vec F S3x512 .f32) :
    { LS : List (View.Piece (Elt F) S8x128 .f32) //
      ∀ (xi : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__lj_kernel i arg2 harg2 arg3 harg3 arg4 harg4 arg5 harg5) K } := by
  refine ⟨?_, fun xi E K => ?run⟩
  case run =>
    simp only [cc0__lj_kernel_eq_skeleton]; unfold cc0__lj_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Body

end
-- ==== Proof.RunCBits.lean ====
/-
  The body at a block on or above the diagonal, strictly between the first and the last column: one addition to the carried accumulator.
  The body is three guarded steps in sequence — zero the accumulator at the first column block; at a block on or
  above the diagonal sum the block's pair energies and add the sum to the accumulator's entry (0, 0); at the last
  column block copy the accumulator to the output block — and what it stores is recorded as the list of stored
  pieces, latest first.
-/
import proofs.«101726_j13400297963575_1_alg».proof.Proof.Gen.Kernel.Frame
import proofs.«101726_j13400297963575_1_alg».proof.Proof.Gen.Kernel.Skeleton
import proofs.«101726_j13400297963575_1_alg».proof.Proof.CasesBits
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A block on or above the diagonal, in neither the first nor the last column: its total is added to the carried accumulator's entry (0, 0). -/
noncomputable def runC (c : Dev nD) (i : grid0.Coords) (arg2 : Memref sig .tc .vmem S512x3 .f32) (harg2 : arg2.IsWhole) (arg3 : Memref sig .tc .vmem S3x512 .f32) (harg3 : arg3.IsWhole) (arg4 : Memref sig .tc .vmem S1x8x128 .f32) (harg4 : arg4.IsWhole) (arg5 : Memref sig .tc .vmem S8x128 .f32) (harg5 : arg5.IsWhole) (hc1 : ¬isFirst i) (hc2 : isUpper i) (hc3 : ¬isLast i)
    (x0 : Vec F S512x3 .f32) (x1 : Vec F S3x512 .f32) (s : Vec F S8x128 .f32) :
    { LS : List (View.Piece (Elt F) S8x128 .f32) //
      ∀ (xi : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare s
            ∗ (iprop(owns (c : Thread nD τ) arg2 fullShare x0 ∗ owns (c : Thread nD τ) arg3 fullShare x1 ∗ owns (c : Thread nD τ) arg4 fullShare xi ∗ (arg5.view.loc (c : Thread nD τ) ↦[arg5.view.set]{fullShare} arg5.view.writes (Elt F) (harg5.unread s) LS)) -∗ K ⟨⟩))
          ⊢ wp frame (wpE (defs₀ (F := F)) Variants.none c none) E (cc0__lj_kernel i arg2 harg2 arg3 harg3 arg4 harg4 arg5 harg5) K } := by
  refine ⟨?_, fun xi E K => ?run⟩
  case run =>
    simp only [cc0__lj_kernel_eq_skeleton]; unfold cc0__lj_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact HS

end Cert.Kernel.Body

end
-- ==== Proof.RunDBits.lean ====
/-
  The body at a block below the diagonal, past the first column: nothing happens.
  The body is three guarded steps in sequence — zero the accumulator at the first column block; at a block on or
  above the diagonal sum the block's pair energies and add the sum to the accumulator's entry (0, 0); at the last
  column block copy the accumulator to the output block — and what it stores is recorded as the list of stored
  pieces, latest first.
-/
import proofs.«101726_j13400297963575_1_alg».proof.Proof.Gen.Kernel.Frame
import proofs.«101726_j13400297963575_1_alg».proof.Proof.Gen.Kernel.Skeleton
import proofs.«101726_j13400297963575_1_alg».proof.Proof.CasesBits
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A block below the diagonal, not in the first column (so not in the last either): the body stores nothing, and every
    buffer is handed back as it was found. -/
theorem runD (c : Dev nD) (i : grid0.Coords) (arg2 : Memref sig .tc .vmem S512x3 .f32) (harg2 : arg2.IsWhole) (arg3 : Memref sig .tc .vmem S3x512 .f32) (harg3 : arg3.IsWhole) (arg4 : Memref sig .tc .vmem S1x8x128 .f32) (harg4 : arg4.IsWhole) (arg5 : Memref sig .tc .vmem S8x128 .f32) (harg5 : arg5.IsWhole) (hc1 : ¬isFirst i) (hc2 : ¬isUpper i) (hc3 : ¬isLast i)
    (x0 : Vec F S512x3 .f32) (x1 : Vec F S3x512 .f32) (xi : Vec F S1x8x128 .f32) (s : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare s
        ∗ (iprop(owns (c : Thread nD τ) arg2 fullShare x0 ∗ owns (c : Thread nD τ) arg3 fullShare x1 ∗ owns (c : Thread nD τ) arg4 fullShare xi ∗ owns (c : Thread nD τ) arg5 fullShare s) -∗ K ⟨⟩))
      ⊢ wp frame (wpE (defs₀ (F := F)) Variants.none c none) E (cc0__lj_kernel i arg2 harg2 arg3 harg3 arg4 harg4 arg5 harg5) K := by
  simp only [cc0__lj_kernel_eq_skeleton]; unfold cc0__lj_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; · ipureintro; exact harg5.read_unread _
  iexact HS

end Cert.Kernel.Body

end
-- ==== Proof.RunEBits.lean ====
/-
  The body at the last column block: the last addition, and the accumulator copied out.
  The body is three guarded steps in sequence — zero the accumulator at the first column block; at a block on or
  above the diagonal sum the block's pair energies and add the sum to the accumulator's entry (0, 0); at the last
  column block copy the accumulator to the output block — and what it stores is recorded as the list of stored
  pieces, latest first.
-/
import proofs.«101726_j13400297963575_1_alg».proof.Proof.Gen.Kernel.Frame
import proofs.«101726_j13400297963575_1_alg».proof.Proof.Gen.Kernel.Skeleton
import proofs.«101726_j13400297963575_1_alg».proof.Proof.CasesBits
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A block of the last column (it is on or above the diagonal, and not the first column): its total is added to
    the accumulator's entry (0, 0) and the accumulator is then copied whole into the output block. -/
noncomputable def runE (c : Dev nD) (i : grid0.Coords) (arg2 : Memref sig .tc .vmem S512x3 .f32) (harg2 : arg2.IsWhole) (arg3 : Memref sig .tc .vmem S3x512 .f32) (harg3 : arg3.IsWhole) (arg4 : Memref sig .tc .vmem S1x8x128 .f32) (harg4 : arg4.IsWhole) (arg5 : Memref sig .tc .vmem S8x128 .f32) (harg5 : arg5.IsWhole) (hc1 : ¬isFirst i) (hc2 : isUpper i) (hc3 : isLast i)
    (x0 : Vec F S512x3 .f32) (x1 : Vec F S3x512 .f32) (s : Vec F S8x128 .f32) :
    Σ' (L2 : List (View.Piece (Elt F) S1x8x128 .f32)), { LS : List (View.Piece (Elt F) S8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare s
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (arg5.view.loc (c : Thread nD τ) ↦[arg5.view.set]{fullShare} arg5.view.writes (Elt F) (harg5.unread s) LS)) -∗ K ⟨⟩))
          ⊢ wp frame (wpE (defs₀ (F := F)) Variants.none c none) E (cc0__lj_kernel i arg2 harg2 arg3 harg3 arg4 harg4 arg5 harg5) K } := by
  refine ⟨?_, ?_, fun E K => ?run⟩
  case run =>
    simp only [cc0__lj_kernel_eq_skeleton]; unfold cc0__lj_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexact HS

end Cert.Kernel.Body

end
-- ==== Proof.CarriedBits.lean ====
/-
  The accumulator carried from grid point to grid point, the proof data of the one pipeline, and the body's
  obligation at every point.  Points run row by row; within row block i the accumulator is zeroed at column block 0,
  gains the total of every block (i, j) with j ≥ i, and is copied to output block i at column block 15.
-/
import proofs.«101726_j13400297963575_1_alg».proof.Proof.Gen.Kernel.Frame
import proofs.«101726_j13400297963575_1_alg».proof.Proof.Gen.Kernel.Skeleton
import proofs.«101726_j13400297963575_1_alg».proof.Proof.RunABits
import proofs.«101726_j13400297963575_1_alg».proof.Proof.RunBBits
import proofs.«101726_j13400297963575_1_alg».proof.Proof.RunCBits
import proofs.«101726_j13400297963575_1_alg».proof.Proof.RunDBits
import proofs.«101726_j13400297963575_1_alg».proof.Proof.RunEBits
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions at a point, from its number -/

theorem first_of (t : Fin cfg0.N) (h : t.val % 16 = 0) : isFirst (grid0.coords t) := (isFirst_iff t).mpr h
theorem not_first_of (t : Fin cfg0.N) (h : ¬t.val % 16 = 0) : ¬isFirst (grid0.coords t) := fun h' => h ((isFirst_iff t).mp h')
theorem upper_of (t : Fin cfg0.N) (h : t.val / 16 ≤ t.val % 16) : isUpper (grid0.coords t) := (isUpper_iff t).mpr h
theorem not_upper_of (t : Fin cfg0.N) (h : ¬t.val / 16 ≤ t.val % 16) : ¬isUpper (grid0.coords t) := fun h' => h ((isUpper_iff t).mp h')
theorem last_of (t : Fin cfg0.N) (h : t.val % 16 = 15) : isLast (grid0.coords t) := (isLast_iff t).mpr h
theorem not_last_of (t : Fin cfg0.N) (h : ¬t.val % 16 = 15) : ¬isLast (grid0.coords t) := fun h' => h ((isLast_iff t).mp h')
theorem lt_256 (t : Fin cfg0.N) : t.val < 256 := lt_of_lt_of_eq t.isLt (show cfg0.N = 256 from N_0)
/-- The first column is not the last. -/
theorem not_last_of_first (t : Fin cfg0.N) (h : t.val % 16 = 0) : ¬isLast (grid0.coords t) :=
  not_last_of t (by omega)
/-- A block below the diagonal is not in the last column: the row block is at most 15. -/
theorem not_last_of_lower (t : Fin cfg0.N) (h : ¬t.val / 16 ≤ t.val % 16) : ¬isLast (grid0.coords t) :=
  not_last_of t (by have := lt_256 t; omega)

/-! ## What the accumulator and the output block hold after a point -/

/-- The accumulator after the body at point `t`, from what it held before (`s`): at the first column block the stored
    pieces alone decide it (they cover it); elsewhere the pieces are written over `s`; below the diagonal past the first
    column nothing is stored and it is `s`. -/
def stepAcc (c : Dev nD) (t : Fin cfg0.N) (s : Vec F S8x128 .f32) : Vec F S8x128 .f32 :=
  if h1 : t.val % 16 = 0 then
    if h2 : t.val / 16 ≤ t.val % 16 then
      accV.read (Elt F) (accV.writes (Elt F) accV.junk (runA c (grid0.coords t) (ms0 t) (hs0 t) (ms1 t) (hs1 t) (ms2 t) (hs2 t) accM accM_whole (first_of t h1) (upper_of t h2) (not_last_of_first t h1) (iblk m c 0 t) (iblk m c 1 t)).1)
    else
      accV.read (Elt F) (accV.writes (Elt F) accV.junk (runB c (grid0.coords t) (ms0 t) (hs0 t) (ms1 t) (hs1 t) (ms2 t) (hs2 t) accM accM_whole (first_of t h1) (not_upper_of t h2) (not_last_of_first t h1) (iblk m c 0 t) (iblk m c 1 t)).1)
  else if h2 : t.val / 16 ≤ t.val % 16 then
    if h3 : t.val % 16 = 15 then
      accV.read (Elt F) (accV.writes (Elt F) (accM_whole.unread s) (runE c (grid0.coords t) (ms0 t) (hs0 t) (ms1 t) (hs1 t) (ms2 t) (hs2 t) accM accM_whole (not_first_of t h1) (upper_of t h2) (last_of t h3) (iblk m c 0 t) (iblk m c 1 t) s).2.1)
    else
      accV.read (Elt F) (accV.writes (Elt F) (accM_whole.unread s) (runC c (grid0.coords t) (ms0 t) (hs0 t) (ms1 t) (hs1 t) (ms2 t) (hs2 t) accM accM_whole (not_first_of t h1) (upper_of t h2) (not_last_of t h3) (iblk m c 0 t) (iblk m c 1 t) s).1)
  else s

/-- The output block's staging buffer after the body at point `t`: at the last column block the copy of the
    accumulator the body stores there; elsewhere the body stores nothing into it and nothing reads this value. -/
def outBlock (c : Dev nD) (t : Fin cfg0.N) (s : Vec F S8x128 .f32) : Vec F S1x8x128 .f32 :=
  if h3 : t.val % 16 = 15 then
    outV.read (Elt F) (outV.writes (Elt F) outV.junk (runE c (grid0.coords t) (ms0 t) (hs0 t) (ms1 t) (hs1 t) (ms2 t) (hs2 t) accM accM_whole (not_first_of t (by omega)) (upper_of t (by have := lt_256 t; omega)) (last_of t h3) (iblk m c 0 t) (iblk m c 1 t) s).1)
  else outV.read (Elt F) outV.junk

/-- The accumulator after point `n`, by recursion on the point; before the first point it holds anything. -/
def accAt (c : Dev nD) : (n : ℕ) → n < cfg0.N → Vec F S8x128 .f32
  | 0, hn => stepAcc m c ⟨0, hn⟩ (accV.read (Elt F) accV.junk)
  | n + 1, hn => stepAcc m c ⟨n + 1, hn⟩ (accAt c n (Nat.lt_of_succ_lt hn))

/-- The accumulator as point `n` finds it. -/
def accBefore (c : Dev nD) : (n : ℕ) → n < cfg0.N → Vec F S8x128 .f32
  | 0, _ => accV.read (Elt F) accV.junk
  | n + 1, hn => accAt m c n (Nat.lt_of_succ_lt hn)

theorem accAt_eq (c : Dev nD) (t : Fin cfg0.N) : accAt m c t.val t.isLt = stepAcc m c t (accBefore m c t.val t.isLt) := by
  obtain ⟨n, hn⟩ := t
  cases n with
  | zero => rfl
  | succ n => rfl

theorem accBefore_pos (c : Dev nD) (n : ℕ) (hn : n < cfg0.N) (hz : n ≠ 0) :
    accBefore m c n hn = accAt m c (n - 1) (by omega) := by
  cases n with
  | zero => exact absurd rfl hz
  | succ n => rfl

/-- The region's invariant before point `n`: before the first point the accumulator holds anything; afterwards what the
    point before left in it. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accAt m c n hn)) ∗ (∃ r, prngReg c r)) := rfl
theorem PhiS_pos (c : Dev nD) (n : ℕ) (hn : n < cfg0.N) (hz : n ≠ 0) :
    PhiS m c n (Nat.le_of_lt hn) = iprop(iprop(owns (c : Thread nD τ) accM fullShare (accBefore m c n hn)) ∗ (∃ r, prngReg c r)) := by
  cases n with
  | zero => exact absurd rfl hz
  | succ n => rfl

/-! ## The proof data -/

/-- The arrays as the region finds them; after the body each input's buffer still at its block, the output's at
    `outBlock`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock m c t (accBefore m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outBlock m c t (accBefore m c t.val t.isLt) := by dsimp only [dats]
/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2_idle (c : Dev nD) (t : Fin cfg0.N) (h : ¬isLast (grid0.coords t)) :
    (dats m 0 c).leavesExact 2 t = iprop(∃ d, owns (c : Thread nD τ) (ms2 t) fullShare ((dats m 0 c).before 2 t d)) :=
  Dat.leavesExact_idle (dats m 0 c) 2 t (idle2 t h) (noFlush2 t h)
theorem leaves2_live (c : Dev nD) (t : Fin cfg0.N) (h : isLast (grid0.coords t)) :
    (dats m 0 c).leavesExact 2 t = owns (c : Thread nD τ) (ms2 t) fullShare (outBlock m c t (accBefore m c t.val t.isLt)) := by
  unfold Dat.leavesExact; rw [live2 t h, after2]

/-! ## The stored pieces cover what they must -/

/-- At the grid's first point the two stores into the accumulator (the zero fill, then entry (0, 0)) cover it. -/
theorem coverA (c : Dev nD) (t : Fin cfg0.N) (h1 : isFirst (grid0.coords t)) (h2 : isUpper (grid0.coords t)) (h3 : ¬isLast (grid0.coords t))
    (x0 : Vec F S512x3 .f32) (x1 : Vec F S3x512 .f32) (y : S8x128.Idx) :
    ∃ pc ∈ (runA c (grid0.coords t) (ms0 t) (hs0 t) (ms1 t) (hs1 t) (ms2 t) (hs2 t) accM accM_whole h1 h2 h3 x0 x1).1, y ∈ pc.1.set :=
  View.cover_of_tiledL (runA c (grid0.coords t) (ms0 t) (hs0 t) (ms1 t) (hs1 t) (ms2 t) (hs2 t) accM accM_whole h1 h2 h3 x0 x1).1 S8x128.size (by sl_kernel_rfl) y
/-- At column block 0 of a later row the zero fill covers the accumulator. -/
theorem coverB (c : Dev nD) (t : Fin cfg0.N) (h1 : isFirst (grid0.coords t)) (h2 : ¬isUpper (grid0.coords t)) (h3 : ¬isLast (grid0.coords t))
    (x0 : Vec F S512x3 .f32) (x1 : Vec F S3x512 .f32) (y : S8x128.Idx) :
    ∃ pc ∈ (runB c (grid0.coords t) (ms0 t) (hs0 t) (ms1 t) (hs1 t) (ms2 t) (hs2 t) accM accM_whole h1 h2 h3 x0 x1).1, y ∈ pc.1.set :=
  View.cover_of_tiledL (runB c (grid0.coords t) (ms0 t) (hs0 t) (ms1 t) (hs1 t) (ms2 t) (hs2 t) accM accM_whole h1 h2 h3 x0 x1).1 S8x128.size (by sl_kernel_rfl) y
/-- At the last column block the one store into the output block covers it. -/
theorem coverE (c : Dev nD) (t : Fin cfg0.N) (h1 : ¬isFirst (grid0.coords t)) (h2 : isUpper (grid0.coords t)) (h3 : isLast (grid0.coords t))
    (x0 : Vec F S512x3 .f32) (x1 : Vec F S3x512 .f32) (s : Vec F S8x128 .f32) (y : S1x8x128.Idx) :
    ∃ pc ∈ (runE c (grid0.coords t) (ms0 t) (hs0 t) (ms1 t) (hs1 t) (ms2 t) (hs2 t) accM accM_whole h1 h2 h3 x0 x1 s).1, y ∈ pc.1.set :=
  View.cover_of_tiledL (runE c (grid0.coords t) (ms0 t) (hs0 t) (ms1 t) (hs1 t) (ms2 t) (hs2 t) accM accM_whole h1 h2 h3 x0 x1 s).1 S1x8x128.size (by sl_kernel_rfl) y

theorem PhiS_pos' (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

set_option maxHeartbeats 4800000 in
/-- The body at any point.  Its number says which of the five situations it is in; the inputs' buffers hold their
    blocks; the invariant hands over the accumulator — at anything before the first point, else at what the point before
    left — and takes it back at `stepAcc`; an output block the body does not store into is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ, accAt_eq, leaves0, leaves1]
  have hN := lt_256 t
  by_cases h1 : t.val % 16 = 0
  · have hl : ¬isLast (grid0.coords t) := not_last_of_first t h1
    rw [leaves2_idle m c t hl]
    by_cases h2 : t.val / 16 ≤ t.val % 16
    · have hz : t.val = 0 := by omega
      rw [Phi_castSucc m c t, PhiS_zero m c _ _ hz, PhiA_eq]
      unfold stepAcc; rw [dif_pos h1, dif_pos h2]
      iintro ⟨⟨HS, Hg⟩, Ho, ⟨%d0, H0⟩, ⟨%d1, H1⟩, ⟨%d2, H2⟩⟩
      iapply ((runA c (grid0.coords t) (ms0 t) (hs0 t) (ms1 t) (hs1 t) (ms2 t) (hs2 t) accM accM_whole (first_of t h1) (upper_of t h2) hl (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverA c t _ _ _ _ _)
        iexact Hg
      isplitl [Ho]; · iexact Ho
      isplitl [H0]; · iexact H0
      isplitl [H1]; · iexact H1
      iexists _; iexact H2
    · have hz : t.val ≠ 0 := by omega
      rw [Phi_castSucc m c t, PhiS_pos m c _ t.isLt hz]
      unfold stepAcc; rw [dif_pos h1, dif_neg h2]
      iintro ⟨⟨HS, Hg⟩, Ho, ⟨%d0, H0⟩, ⟨%d1, H1⟩, ⟨%d2, H2⟩⟩
      iapply ((runB c (grid0.coords t) (ms0 t) (hs0 t) (ms1 t) (hs1 t) (ms2 t) (hs2 t) accM accM_whole (first_of t h1) (not_upper_of t h2) hl (iblk m c 0 t) (iblk m c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverB c t _ _ _ _ _)
        iexact Hg
      isplitl [Ho]; · iexact Ho
      isplitl [H0]; · iexact H0
      isplitl [H1]; · iexact H1
      iexists _; iexact H2
  · have hz : t.val ≠ 0 := by omega
    rw [Phi_castSucc m c t, PhiS_pos m c _ t.isLt hz]
    by_cases h2 : t.val / 16 ≤ t.val % 16
    · by_cases h3 : t.val % 16 = 15
      · rw [leaves2_live m c t (last_of t h3)]
        unfold stepAcc outBlock; rw [dif_neg h1, dif_pos h2, dif_pos h3, dif_pos h3]
        iintro ⟨⟨HS, Hg⟩, Ho, ⟨%d0, H0⟩, ⟨%d1, H1⟩, ⟨%d2, H2⟩⟩
        iapply ((runE c (grid0.coords t) (ms0 t) (hs0 t) (ms1 t) (hs1 t) (ms2 t) (hs2 t) accM accM_whole (not_first_of t h1) (upper_of t h2) (last_of t h3) (iblk m c 0 t) (iblk m c 1 t) (accBefore m c t.val t.isLt)).2.2 Set.univ _)
        isplitl [H0]; · iexact H0
        isplitl [H1]; · iexact H1
        isplitl [H2]; · iexists _; iexact H2
        isplitl [HS]; · iexact HS
        iintro ⟨H0, H1, ⟨%e2, H2⟩, HS⟩
        isplitl [HS Hg]
        · isplitl [HS]
          · unfold owns; iexists _; isplitr
            swap; · iexact HS
            ipureintro; rfl
          iexact Hg
        isplitl [Ho]; · iexact Ho
        isplitl [H0]; · iexact H0
        isplitl [H1]; · iexact H1
        unfold owns; iexists _; isplitr
        swap; · iexact H2
        ipureintro; exact View.read_writes_of_cover _ _ _ _ _ (coverE c t _ _ _ _ _ _)
      · rw [leaves2_idle m c t (not_last_of t h3)]
        unfold stepAcc; rw [dif_neg h1, dif_pos h2, dif_neg h3]
        iintro ⟨⟨HS, Hg⟩, Ho, ⟨%d0, H0⟩, ⟨%d1, H1⟩, ⟨%d2, H2⟩⟩
        iapply ((runC c (grid0.coords t) (ms0 t) (hs0 t) (ms1 t) (hs1 t) (ms2 t) (hs2 t) accM accM_whole (not_first_of t h1) (upper_of t h2) (not_last_of t h3) (iblk m c 0 t) (iblk m c 1 t) (accBefore m c t.val t.isLt)).2 _ Set.univ _)
        isplitl [H0]; · iexact H0
        isplitl [H1]; · iexact H1
        isplitl [H2]; · iexact H2
        isplitl [HS]; · iexact HS
        iintro ⟨H0, H1, H2, HS⟩
        isplitl [HS Hg]
        · isplitl [HS]
          · unfold owns; iexists _; isplitr
            swap; · iexact HS
            ipureintro; rfl
          iexact Hg
        isplitl [Ho]; · iexact Ho
        isplitl [H0]; · iexact H0
        isplitl [H1]; · iexact H1
        iexists _; iexact H2
    · rw [leaves2_idle m c t (not_last_of_lower t h2)]
      unfold stepAcc; rw [dif_neg h1, dif_neg h2]
      iintro ⟨⟨HS, Hg⟩, Ho, ⟨%d0, H0⟩, ⟨%d1, H1⟩, ⟨%d2, H2⟩⟩
      iapply (runD c (grid0.coords t) (ms0 t) (hs0 t) (ms1 t) (hs1 t) (ms2 t) (hs2 t) accM accM_whole (not_first_of t h1) (not_upper_of t h2) (not_last_of_lower t h2) (iblk m c 0 t) (iblk m c 1 t) _ (accBefore m c t.val t.isLt) Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulator back at some contents. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos' m c _ _ (by rw [Fin.val_last]; have : cfg0.N = 256 := N_0; omega), PhiA_eq]
  iintro ⟨HS, Hg⟩
  isplitl [HS]
  · iexists _; iexact HS
  iexact Hg

/-! ## The run and the frame -/

set_option backward.isDefEq.respectTransparency.types false in
/-- Every weakly fair execution of the program terminates without a fault, every array of the pipeline ending at what
    the proof data says and every other buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Body

end
-- ==== Proof.CasesIdeal.lean ====
/-
  The points of the grid and what the body does at each: the three conditions in closed form, where the output
  window is idle, and the names of the buffers the body is handed.
-/
import proofs.«101726_j13400297963575_1_alg».proof.Proof.Gen.KernelIdeal.Frame
import proofs.«101726_j13400297963575_1_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-!
  The grid is 16 × 16: point (i, j) handles the pairs whose first particle lies in block i (512 particles) and whose
  second lies in block j.  Three conditions on the point steer the body: at j = 0 the carried accumulator is set to
  zero; at j ≥ i (a block on or above the diagonal) the block's total is added to the accumulator's entry (0, 0);
  at j = 15 the accumulator is copied to the output block of row i.  Points are numbered row by row, t = 16 i + j,
  so the three conditions read t % 16 = 0, t / 16 ≤ t % 16 and t % 16 = 15.
-/

/-- The first column block: the accumulator is reset here. -/
abbrev isFirst (i : grid0.Coords) : Prop := (Scalar.cmpi .ne (Scalar.extui (Scalar.cmpi .eq (BitVec.ofNat 32 (i 1).val) 0#32)) 0#32) = 1#1
/-- The block lies on or above the diagonal: its pairs are added. -/
abbrev isUpper (i : grid0.Coords) : Prop := (Scalar.cmpi .ne (Scalar.extui (Scalar.cmpi .sge (BitVec.ofNat 32 (i 1).val) (BitVec.ofNat 32 (i 0).val))) 0#32) = 1#1
/-- The last column block: the accumulator is written out here. -/
abbrev isLast (i : grid0.Coords) : Prop := k0_cond3 i = 1#1

theorem isFirst_iff : ∀ t : Fin cfg0.N, isFirst (grid0.coords t) ↔ t.val % 16 = 0 :=
  (by decide +kernel : ∀ t : Fin grid0.N, isFirst (grid0.coords t) ↔ t.val % 16 = 0)
theorem isUpper_iff : ∀ t : Fin cfg0.N, isUpper (grid0.coords t) ↔ t.val / 16 ≤ t.val % 16 :=
  (by decide +kernel : ∀ t : Fin grid0.N, isUpper (grid0.coords t) ↔ t.val / 16 ≤ t.val % 16)
theorem isLast_iff : ∀ t : Fin cfg0.N, isLast (grid0.coords t) ↔ t.val % 16 = 15 :=
  (by decide +kernel : ∀ t : Fin grid0.N, isLast (grid0.coords t) ↔ t.val % 16 = 15)

/-- The point's coordinates: row block t / 16, column block t % 16. -/
theorem coords_row : ∀ t : Fin cfg0.N, ((grid0.coords t) 0).val = t.val / 16 :=
  (by decide +kernel : ∀ t : Fin grid0.N, ((grid0.coords t) 0).val = t.val / 16)
theorem coords_col : ∀ t : Fin cfg0.N, ((grid0.coords t) 1).val = t.val % 16 :=
  (by decide +kernel : ∀ t : Fin grid0.N, ((grid0.coords t) 1).val = t.val % 16)

/-- The two input windows are never idle. -/
theorem live0 : ∀ t : Fin cfg0.N, cfg0.idle 0 (grid0.coords t) = false := by decide +kernel
theorem live1 : ∀ t : Fin cfg0.N, cfg0.idle 1 (grid0.coords t) = false := by decide +kernel
/-- Away from the last column block the body stores nothing into the output block, and it is not written back there. -/
theorem idle2 : ∀ t : Fin cfg0.N, ¬isLast (grid0.coords t) → cfg0.idle 2 (grid0.coords t) = true := by decide +kernel
theorem noFlush2 : ∀ t : Fin cfg0.N, ¬isLast (grid0.coords t) → (cfg0.win 2).flush t = false := by decide +kernel
/-- At the last column block the output block is stored whole. -/
theorem live2 : ∀ t : Fin cfg0.N, isLast (grid0.coords t) → cfg0.idle 2 (grid0.coords t) = false := by decide +kernel

/-- Each window's current staging memref at point `t`, and its wholeness. -/
abbrev ms0 (t : Fin cfg0.N) : Memref sig .tc .vmem S512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8x128 .f32 := win0_2.stage (cfg0.slots t 2)
abbrev hs2 (t : Fin cfg0.N) : (ms2 t).IsWhole := hstage0_2 ((cfg0.slots t 2).cast nbuf0_2)
/-- The accumulator: a whole scratch buffer of the kernel's own, carried from point to point. -/
abbrev accM : Memref sig .tc .vmem S8x128 .f32 := Memref.whole cc0_scratch0
theorem accM_whole : (accM).IsWhole := Memref.isWhole_whole _
/-- The views through which the accumulator's and the output block's contents are stated. -/
abbrev accV : View sig .tc .vmem S8x128 .f32 := accM.view
abbrev outV : View sig .tc .vmem S1x8x128 .f32 := (Memref.whole cc0_stg2_0 : Memref sig .tc .vmem S1x8x128 .f32).view

/-- What the region may use beside its windows: the accumulator at some contents, and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Body

end
-- ==== Proof.RunAIdeal.lean ====
/-
  The body at the grid's first point (row block 0, column block 0): the reset and the first addition.
  The body is three guarded steps in sequence — zero the accumulator at the first column block; at a block on or
  above the diagonal sum the block's pair energies and add the sum to the accumulator's entry (0, 0); at the last
  column block copy the accumulator to the output block — and what it stores is recorded as the list of stored
  pieces, latest first.
-/
import proofs.«101726_j13400297963575_1_alg».proof.Proof.Gen.KernelIdeal.Frame
import proofs.«101726_j13400297963575_1_alg».proof.Proof.Gen.KernelIdeal.Skeleton
import proofs.«101726_j13400297963575_1_alg».proof.Proof.CasesIdeal
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Row 0, column 0: the accumulator is zeroed and the diagonal block's total added to its entry (0, 0); whatever it held before is overwritten. -/
noncomputable def runA (c : Dev nD) (i : grid0.Coords) (arg2 : Memref sig .tc .vmem S512x3 .f32) (harg2 : arg2.IsWhole) (arg3 : Memref sig .tc .vmem S3x512 .f32) (harg3 : arg3.IsWhole) (arg4 : Memref sig .tc .vmem S1x8x128 .f32) (harg4 : arg4.IsWhole) (arg5 : Memref sig .tc .vmem S8x128 .f32) (harg5 : arg5.IsWhole) (hc1 : isFirst i) (hc2 : isUpper i) (hc3 : ¬isLast i)
    (x0 : Vec F S512x3 .f32) (x1 : Vec F S3x512 .f32) :
    { LS : List (View.Piece (Elt F) S8x128 .f32) //
      ∀ (xi : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__lj_kernel i arg2 harg2 arg3 harg3 arg4 harg4 arg5 harg5) K } := by
  refine ⟨?_, fun xi E K => ?run⟩
  case run =>
    simp only [cc0__lj_kernel_eq_skeleton]; unfold cc0__lj_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Body

end
-- ==== Proof.RunBIdeal.lean ====
/-
  The body at column block 0 of a row block below the first: the reset alone.
  The body is three guarded steps in sequence — zero the accumulator at the first column block; at a block on or
  above the diagonal sum the block's pair energies and add the sum to the accumulator's entry (0, 0); at the last
  column block copy the accumulator to the output block — and what it stores is recorded as the list of stored
  pieces, latest first.
-/
import proofs.«101726_j13400297963575_1_alg».proof.Proof.Gen.KernelIdeal.Frame
import proofs.«101726_j13400297963575_1_alg».proof.Proof.Gen.KernelIdeal.Skeleton
import proofs.«101726_j13400297963575_1_alg».proof.Proof.CasesIdeal
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Column 0 of a later row: the accumulator is zeroed; the block lies below the diagonal and adds nothing. -/
noncomputable def runB (c : Dev nD) (i : grid0.Coords) (arg2 : Memref sig .tc .vmem S512x3 .f32) (harg2 : arg2.IsWhole) (arg3 : Memref sig .tc .vmem S3x512 .f32) (harg3 : arg3.IsWhole) (arg4 : Memref sig .tc .vmem S1x8x128 .f32) (harg4 : arg4.IsWhole) (arg5 : Memref sig .tc .vmem S8x128 .f32) (harg5 : arg5.IsWhole) (hc1 : isFirst i) (hc2 : ¬isUpper i) (hc3 : ¬isLast i)
    (x0 : Vec F S512x3 .f32) (x1 : Vec F S3x512 .f32) :
    { LS : List (View.Piece (Elt F) S8x128 .f32) //
      ∀ (xi : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__lj_kernel i arg2 harg2 arg3 harg3 arg4 harg4 arg5 harg5) K } := by
  refine ⟨?_, fun xi E K => ?run⟩
  case run =>
    simp only [cc0__lj_kernel_eq_skeleton]; unfold cc0__lj_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Body

end
-- ==== Proof.RunCIdeal.lean ====
/-
  The body at a block on or above the diagonal, strictly between the first and the last column: one addition to the carried accumulator.
  The body is three guarded steps in sequence — zero the accumulator at the first column block; at a block on or
  above the diagonal sum the block's pair energies and add the sum to the accumulator's entry (0, 0); at the last
  column block copy the accumulator to the output block — and what it stores is recorded as the list of stored
  pieces, latest first.
-/
import proofs.«101726_j13400297963575_1_alg».proof.Proof.Gen.KernelIdeal.Frame
import proofs.«101726_j13400297963575_1_alg».proof.Proof.Gen.KernelIdeal.Skeleton
import proofs.«101726_j13400297963575_1_alg».proof.Proof.CasesIdeal
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- A block on or above the diagonal, in neither the first nor the last column: its total is added to the carried accumulator's entry (0, 0). -/
noncomputable def runC (c : Dev nD) (i : grid0.Coords) (arg2 : Memref sig .tc .vmem S512x3 .f32) (harg2 : arg2.IsWhole) (arg3 : Memref sig .tc .vmem S3x512 .f32) (harg3 : arg3.IsWhole) (arg4 : Memref sig .tc .vmem S1x8x128 .f32) (harg4 : arg4.IsWhole) (arg5 : Memref sig .tc .vmem S8x128 .f32) (harg5 : arg5.IsWhole) (hc1 : ¬isFirst i) (hc2 : isUpper i) (hc3 : ¬isLast i)
    (x0 : Vec F S512x3 .f32) (x1 : Vec F S3x512 .f32) (s : Vec F S8x128 .f32) :
    { LS : List (View.Piece (Elt F) S8x128 .f32) //
      ∀ (xi : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare s
            ∗ (iprop(owns (c : Thread nD τ) arg2 fullShare x0 ∗ owns (c : Thread nD τ) arg3 fullShare x1 ∗ owns (c : Thread nD τ) arg4 fullShare xi ∗ (arg5.view.loc (c : Thread nD τ) ↦[arg5.view.set]{fullShare} arg5.view.writes (Elt F) (harg5.unread s) LS)) -∗ K ⟨⟩))
          ⊢ wp frame (wpE (defs₀ (F := F)) Variants.none c none) E (cc0__lj_kernel i arg2 harg2 arg3 harg3 arg4 harg4 arg5 harg5) K } := by
  refine ⟨?_, fun xi E K => ?run⟩
  case run =>
    simp only [cc0__lj_kernel_eq_skeleton]; unfold cc0__lj_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact HS

end Cert.KernelIdeal.Body

end
-- ==== Proof.RunDIdeal.lean ====
/-
  The body at a block below the diagonal, past the first column: nothing happens.
  The body is three guarded steps in sequence — zero the accumulator at the first column block; at a block on or
  above the diagonal sum the block's pair energies and add the sum to the accumulator's entry (0, 0); at the last
  column block copy the accumulator to the output block — and what it stores is recorded as the list of stored
  pieces, latest first.
-/
import proofs.«101726_j13400297963575_1_alg».proof.Proof.Gen.KernelIdeal.Frame
import proofs.«101726_j13400297963575_1_alg».proof.Proof.Gen.KernelIdeal.Skeleton
import proofs.«101726_j13400297963575_1_alg».proof.Proof.CasesIdeal
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- A block below the diagonal, not in the first column (so not in the last either): the body stores nothing, and every
    buffer is handed back as it was found. -/
theorem runD (c : Dev nD) (i : grid0.Coords) (arg2 : Memref sig .tc .vmem S512x3 .f32) (harg2 : arg2.IsWhole) (arg3 : Memref sig .tc .vmem S3x512 .f32) (harg3 : arg3.IsWhole) (arg4 : Memref sig .tc .vmem S1x8x128 .f32) (harg4 : arg4.IsWhole) (arg5 : Memref sig .tc .vmem S8x128 .f32) (harg5 : arg5.IsWhole) (hc1 : ¬isFirst i) (hc2 : ¬isUpper i) (hc3 : ¬isLast i)
    (x0 : Vec F S512x3 .f32) (x1 : Vec F S3x512 .f32) (xi : Vec F S1x8x128 .f32) (s : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare s
        ∗ (iprop(owns (c : Thread nD τ) arg2 fullShare x0 ∗ owns (c : Thread nD τ) arg3 fullShare x1 ∗ owns (c : Thread nD τ) arg4 fullShare xi ∗ owns (c : Thread nD τ) arg5 fullShare s) -∗ K ⟨⟩))
      ⊢ wp frame (wpE (defs₀ (F := F)) Variants.none c none) E (cc0__lj_kernel i arg2 harg2 arg3 harg3 arg4 harg4 arg5 harg5) K := by
  simp only [cc0__lj_kernel_eq_skeleton]; unfold cc0__lj_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; · ipureintro; exact harg5.read_unread _
  iexact HS

end Cert.KernelIdeal.Body

end
-- ==== Proof.RunEIdeal.lean ====
/-
  The body at the last column block: the last addition, and the accumulator copied out.
  The body is three guarded steps in sequence — zero the accumulator at the first column block; at a block on or
  above the diagonal sum the block's pair energies and add the sum to the accumulator's entry (0, 0); at the last
  column block copy the accumulator to the output block — and what it stores is recorded as the list of stored
  pieces, latest first.
-/
import proofs.«101726_j13400297963575_1_alg».proof.Proof.Gen.KernelIdeal.Frame
import proofs.«101726_j13400297963575_1_alg».proof.Proof.Gen.KernelIdeal.Skeleton
import proofs.«101726_j13400297963575_1_alg».proof.Proof.CasesIdeal
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- A block of the last column (it is on or above the diagonal, and not the first column): its total is added to
    the accumulator's entry (0, 0) and the accumulator is then copied whole into the output block. -/
noncomputable def runE (c : Dev nD) (i : grid0.Coords) (arg2 : Memref sig .tc .vmem S512x3 .f32) (harg2 : arg2.IsWhole) (arg3 : Memref sig .tc .vmem S3x512 .f32) (harg3 : arg3.IsWhole) (arg4 : Memref sig .tc .vmem S1x8x128 .f32) (harg4 : arg4.IsWhole) (arg5 : Memref sig .tc .vmem S8x128 .f32) (harg5 : arg5.IsWhole) (hc1 : ¬isFirst i) (hc2 : isUpper i) (hc3 : isLast i)
    (x0 : Vec F S512x3 .f32) (x1 : Vec F S3x512 .f32) (s : Vec F S8x128 .f32) :
    Σ' (L2 : List (View.Piece (Elt F) S1x8x128 .f32)), { LS : List (View.Piece (Elt F) S8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare s
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (arg5.view.loc (c : Thread nD τ) ↦[arg5.view.set]{fullShare} arg5.view.writes (Elt F) (harg5.unread s) LS)) -∗ K ⟨⟩))
          ⊢ wp frame (wpE (defs₀ (F := F)) Variants.none c none) E (cc0__lj_kernel i arg2 harg2 arg3 harg3 arg4 harg4 arg5 harg5) K } := by
  refine ⟨?_, ?_, fun E K => ?run⟩
  case run =>
    simp only [cc0__lj_kernel_eq_skeleton]; unfold cc0__lj_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexact HS

end Cert.KernelIdeal.Body

end
-- ==== Proof.CarriedIdeal.lean ====
/-
  The accumulator carried from grid point to grid point, the proof data of the one pipeline, and the body's
  obligation at every point.  Points run row by row; within row block i the accumulator is zeroed at column block 0,
  gains the total of every block (i, j) with j ≥ i, and is copied to output block i at column block 15.
-/
import proofs.«101726_j13400297963575_1_alg».proof.Proof.Gen.KernelIdeal.Frame
import proofs.«101726_j13400297963575_1_alg».proof.Proof.Gen.KernelIdeal.Skeleton
import proofs.«101726_j13400297963575_1_alg».proof.Proof.RunAIdeal
import proofs.«101726_j13400297963575_1_alg».proof.Proof.RunBIdeal
import proofs.«101726_j13400297963575_1_alg».proof.Proof.RunCIdeal
import proofs.«101726_j13400297963575_1_alg».proof.Proof.RunDIdeal
import proofs.«101726_j13400297963575_1_alg».proof.Proof.RunEIdeal
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions at a point, from its number -/

theorem first_of (t : Fin cfg0.N) (h : t.val % 16 = 0) : isFirst (grid0.coords t) := (isFirst_iff t).mpr h
theorem not_first_of (t : Fin cfg0.N) (h : ¬t.val % 16 = 0) : ¬isFirst (grid0.coords t) := fun h' => h ((isFirst_iff t).mp h')
theorem upper_of (t : Fin cfg0.N) (h : t.val / 16 ≤ t.val % 16) : isUpper (grid0.coords t) := (isUpper_iff t).mpr h
theorem not_upper_of (t : Fin cfg0.N) (h : ¬t.val / 16 ≤ t.val % 16) : ¬isUpper (grid0.coords t) := fun h' => h ((isUpper_iff t).mp h')
theorem last_of (t : Fin cfg0.N) (h : t.val % 16 = 15) : isLast (grid0.coords t) := (isLast_iff t).mpr h
theorem not_last_of (t : Fin cfg0.N) (h : ¬t.val % 16 = 15) : ¬isLast (grid0.coords t) := fun h' => h ((isLast_iff t).mp h')
theorem lt_256 (t : Fin cfg0.N) : t.val < 256 := lt_of_lt_of_eq t.isLt (show cfg0.N = 256 from N_0)
/-- The first column is not the last. -/
theorem not_last_of_first (t : Fin cfg0.N) (h : t.val % 16 = 0) : ¬isLast (grid0.coords t) :=
  not_last_of t (by omega)
/-- A block below the diagonal is not in the last column: the row block is at most 15. -/
theorem not_last_of_lower (t : Fin cfg0.N) (h : ¬t.val / 16 ≤ t.val % 16) : ¬isLast (grid0.coords t) :=
  not_last_of t (by have := lt_256 t; omega)

/-! ## What the accumulator and the output block hold after a point -/

/-- The accumulator after the body at point `t`, from what it held before (`s`): at the first column block the stored
    pieces alone decide it (they cover it); elsewhere the pieces are written over `s`; below the diagonal past the first
    column nothing is stored and it is `s`. -/
def stepAcc (c : Dev nD) (t : Fin cfg0.N) (s : Vec F S8x128 .f32) : Vec F S8x128 .f32 :=
  if h1 : t.val % 16 = 0 then
    if h2 : t.val / 16 ≤ t.val % 16 then
      accV.read (Elt F) (accV.writes (Elt F) accV.junk (runA c (grid0.coords t) (ms0 t) (hs0 t) (ms1 t) (hs1 t) (ms2 t) (hs2 t) accM accM_whole (first_of t h1) (upper_of t h2) (not_last_of_first t h1) (iblk m c 0 t) (iblk m c 1 t)).1)
    else
      accV.read (Elt F) (accV.writes (Elt F) accV.junk (runB c (grid0.coords t) (ms0 t) (hs0 t) (ms1 t) (hs1 t) (ms2 t) (hs2 t) accM accM_whole (first_of t h1) (not_upper_of t h2) (not_last_of_first t h1) (iblk m c 0 t) (iblk m c 1 t)).1)
  else if h2 : t.val / 16 ≤ t.val % 16 then
    if h3 : t.val % 16 = 15 then
      accV.read (Elt F) (accV.writes (Elt F) (accM_whole.unread s) (runE c (grid0.coords t) (ms0 t) (hs0 t) (ms1 t) (hs1 t) (ms2 t) (hs2 t) accM accM_whole (not_first_of t h1) (upper_of t h2) (last_of t h3) (iblk m c 0 t) (iblk m c 1 t) s).2.1)
    else
      accV.read (Elt F) (accV.writes (Elt F) (accM_whole.unread s) (runC c (grid0.coords t) (ms0 t) (hs0 t) (ms1 t) (hs1 t) (ms2 t) (hs2 t) accM accM_whole (not_first_of t h1) (upper_of t h2) (not_last_of t h3) (iblk m c 0 t) (iblk m c 1 t) s).1)
  else s

/-- The output block's staging buffer after the body at point `t`: at the last column block the copy of the
    accumulator the body stores there; elsewhere the body stores nothing into it and nothing reads this value. -/
def outBlock (c : Dev nD) (t : Fin cfg0.N) (s : Vec F S8x128 .f32) : Vec F S1x8x128 .f32 :=
  if h3 : t.val % 16 = 15 then
    outV.read (Elt F) (outV.writes (Elt F) outV.junk (runE c (grid0.coords t) (ms0 t) (hs0 t) (ms1 t) (hs1 t) (ms2 t) (hs2 t) accM accM_whole (not_first_of t (by omega)) (upper_of t (by have := lt_256 t; omega)) (last_of t h3) (iblk m c 0 t) (iblk m c 1 t) s).1)
  else outV.read (Elt F) outV.junk

/-- The accumulator after point `n`, by recursion on the point; before the first point it holds anything. -/
def accAt (c : Dev nD) : (n : ℕ) → n < cfg0.N → Vec F S8x128 .f32
  | 0, hn => stepAcc m c ⟨0, hn⟩ (accV.read (Elt F) accV.junk)
  | n + 1, hn => stepAcc m c ⟨n + 1, hn⟩ (accAt c n (Nat.lt_of_succ_lt hn))

/-- The accumulator as point `n` finds it. -/
def accBefore (c : Dev nD) : (n : ℕ) → n < cfg0.N → Vec F S8x128 .f32
  | 0, _ => accV.read (Elt F) accV.junk
  | n + 1, hn => accAt m c n (Nat.lt_of_succ_lt hn)

theorem accAt_eq (c : Dev nD) (t : Fin cfg0.N) : accAt m c t.val t.isLt = stepAcc m c t (accBefore m c t.val t.isLt) := by
  obtain ⟨n, hn⟩ := t
  cases n with
  | zero => rfl
  | succ n => rfl

theorem accBefore_pos (c : Dev nD) (n : ℕ) (hn : n < cfg0.N) (hz : n ≠ 0) :
    accBefore m c n hn = accAt m c (n - 1) (by omega) := by
  cases n with
  | zero => exact absurd rfl hz
  | succ n => rfl

/-- The region's invariant before point `n`: before the first point the accumulator holds anything; afterwards what the
    point before left in it. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accAt m c n hn)) ∗ (∃ r, prngReg c r)) := rfl
theorem PhiS_pos (c : Dev nD) (n : ℕ) (hn : n < cfg0.N) (hz : n ≠ 0) :
    PhiS m c n (Nat.le_of_lt hn) = iprop(iprop(owns (c : Thread nD τ) accM fullShare (accBefore m c n hn)) ∗ (∃ r, prngReg c r)) := by
  cases n with
  | zero => exact absurd rfl hz
  | succ n => rfl

/-! ## The proof data -/

/-- The arrays as the region finds them; after the body each input's buffer still at its block, the output's at
    `outBlock`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock m c t (accBefore m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outBlock m c t (accBefore m c t.val t.isLt) := by dsimp only [dats]
/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2_idle (c : Dev nD) (t : Fin cfg0.N) (h : ¬isLast (grid0.coords t)) :
    (dats m 0 c).leavesExact 2 t = iprop(∃ d, owns (c : Thread nD τ) (ms2 t) fullShare ((dats m 0 c).before 2 t d)) :=
  Dat.leavesExact_idle (dats m 0 c) 2 t (idle2 t h) (noFlush2 t h)
theorem leaves2_live (c : Dev nD) (t : Fin cfg0.N) (h : isLast (grid0.coords t)) :
    (dats m 0 c).leavesExact 2 t = owns (c : Thread nD τ) (ms2 t) fullShare (outBlock m c t (accBefore m c t.val t.isLt)) := by
  unfold Dat.leavesExact; rw [live2 t h, after2]

/-! ## The stored pieces cover what they must -/

/-- At the grid's first point the two stores into the accumulator (the zero fill, then entry (0, 0)) cover it. -/
theorem coverA (c : Dev nD) (t : Fin cfg0.N) (h1 : isFirst (grid0.coords t)) (h2 : isUpper (grid0.coords t)) (h3 : ¬isLast (grid0.coords t))
    (x0 : Vec F S512x3 .f32) (x1 : Vec F S3x512 .f32) (y : S8x128.Idx) :
    ∃ pc ∈ (runA c (grid0.coords t) (ms0 t) (hs0 t) (ms1 t) (hs1 t) (ms2 t) (hs2 t) accM accM_whole h1 h2 h3 x0 x1).1, y ∈ pc.1.set :=
  View.cover_of_tiledL (runA c (grid0.coords t) (ms0 t) (hs0 t) (ms1 t) (hs1 t) (ms2 t) (hs2 t) accM accM_whole h1 h2 h3 x0 x1).1 S8x128.size (by sl_kernel_rfl) y
/-- At column block 0 of a later row the zero fill covers the accumulator. -/
theorem coverB (c : Dev nD) (t : Fin cfg0.N) (h1 : isFirst (grid0.coords t)) (h2 : ¬isUpper (grid0.coords t)) (h3 : ¬isLast (grid0.coords t))
    (x0 : Vec F S512x3 .f32) (x1 : Vec F S3x512 .f32) (y : S8x128.Idx) :
    ∃ pc ∈ (runB c (grid0.coords t) (ms0 t) (hs0 t) (ms1 t) (hs1 t) (ms2 t) (hs2 t) accM accM_whole h1 h2 h3 x0 x1).1, y ∈ pc.1.set :=
  View.cover_of_tiledL (runB c (grid0.coords t) (ms0 t) (hs0 t) (ms1 t) (hs1 t) (ms2 t) (hs2 t) accM accM_whole h1 h2 h3 x0 x1).1 S8x128.size (by sl_kernel_rfl) y
/-- At the last column block the one store into the output block covers it. -/
theorem coverE (c : Dev nD) (t : Fin cfg0.N) (h1 : ¬isFirst (grid0.coords t)) (h2 : isUpper (grid0.coords t)) (h3 : isLast (grid0.coords t))
    (x0 : Vec F S512x3 .f32) (x1 : Vec F S3x512 .f32) (s : Vec F S8x128 .f32) (y : S1x8x128.Idx) :
    ∃ pc ∈ (runE c (grid0.coords t) (ms0 t) (hs0 t) (ms1 t) (hs1 t) (ms2 t) (hs2 t) accM accM_whole h1 h2 h3 x0 x1 s).1, y ∈ pc.1.set :=
  View.cover_of_tiledL (runE c (grid0.coords t) (ms0 t) (hs0 t) (ms1 t) (hs1 t) (ms2 t) (hs2 t) accM accM_whole h1 h2 h3 x0 x1 s).1 S1x8x128.size (by sl_kernel_rfl) y

theorem PhiS_pos' (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

set_option maxHeartbeats 4800000 in
/-- The body at any point.  Its number says which of the five situations it is in; the inputs' buffers hold their
    blocks; the invariant hands over the accumulator — at anything before the first point, else at what the point before
    left — and takes it back at `stepAcc`; an output block the body does not store into is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ, accAt_eq, leaves0, leaves1]
  have hN := lt_256 t
  by_cases h1 : t.val % 16 = 0
  · have hl : ¬isLast (grid0.coords t) := not_last_of_first t h1
    rw [leaves2_idle m c t hl]
    by_cases h2 : t.val / 16 ≤ t.val % 16
    · have hz : t.val = 0 := by omega
      rw [Phi_castSucc m c t, PhiS_zero m c _ _ hz, PhiA_eq]
      unfold stepAcc; rw [dif_pos h1, dif_pos h2]
      iintro ⟨⟨HS, Hg⟩, Ho, ⟨%d0, H0⟩, ⟨%d1, H1⟩, ⟨%d2, H2⟩⟩
      iapply ((runA c (grid0.coords t) (ms0 t) (hs0 t) (ms1 t) (hs1 t) (ms2 t) (hs2 t) accM accM_whole (first_of t h1) (upper_of t h2) hl (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverA c t _ _ _ _ _)
        iexact Hg
      isplitl [Ho]; · iexact Ho
      isplitl [H0]; · iexact H0
      isplitl [H1]; · iexact H1
      iexists _; iexact H2
    · have hz : t.val ≠ 0 := by omega
      rw [Phi_castSucc m c t, PhiS_pos m c _ t.isLt hz]
      unfold stepAcc; rw [dif_pos h1, dif_neg h2]
      iintro ⟨⟨HS, Hg⟩, Ho, ⟨%d0, H0⟩, ⟨%d1, H1⟩, ⟨%d2, H2⟩⟩
      iapply ((runB c (grid0.coords t) (ms0 t) (hs0 t) (ms1 t) (hs1 t) (ms2 t) (hs2 t) accM accM_whole (first_of t h1) (not_upper_of t h2) hl (iblk m c 0 t) (iblk m c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverB c t _ _ _ _ _)
        iexact Hg
      isplitl [Ho]; · iexact Ho
      isplitl [H0]; · iexact H0
      isplitl [H1]; · iexact H1
      iexists _; iexact H2
  · have hz : t.val ≠ 0 := by omega
    rw [Phi_castSucc m c t, PhiS_pos m c _ t.isLt hz]
    by_cases h2 : t.val / 16 ≤ t.val % 16
    · by_cases h3 : t.val % 16 = 15
      · rw [leaves2_live m c t (last_of t h3)]
        unfold stepAcc outBlock; rw [dif_neg h1, dif_pos h2, dif_pos h3, dif_pos h3]
        iintro ⟨⟨HS, Hg⟩, Ho, ⟨%d0, H0⟩, ⟨%d1, H1⟩, ⟨%d2, H2⟩⟩
        iapply ((runE c (grid0.coords t) (ms0 t) (hs0 t) (ms1 t) (hs1 t) (ms2 t) (hs2 t) accM accM_whole (not_first_of t h1) (upper_of t h2) (last_of t h3) (iblk m c 0 t) (iblk m c 1 t) (accBefore m c t.val t.isLt)).2.2 Set.univ _)
        isplitl [H0]; · iexact H0
        isplitl [H1]; · iexact H1
        isplitl [H2]; · iexists _; iexact H2
        isplitl [HS]; · iexact HS
        iintro ⟨H0, H1, ⟨%e2, H2⟩, HS⟩
        isplitl [HS Hg]
        · isplitl [HS]
          · unfold owns; iexists _; isplitr
            swap; · iexact HS
            ipureintro; rfl
          iexact Hg
        isplitl [Ho]; · iexact Ho
        isplitl [H0]; · iexact H0
        isplitl [H1]; · iexact H1
        unfold owns; iexists _; isplitr
        swap; · iexact H2
        ipureintro; exact View.read_writes_of_cover _ _ _ _ _ (coverE c t _ _ _ _ _ _)
      · rw [leaves2_idle m c t (not_last_of t h3)]
        unfold stepAcc; rw [dif_neg h1, dif_pos h2, dif_neg h3]
        iintro ⟨⟨HS, Hg⟩, Ho, ⟨%d0, H0⟩, ⟨%d1, H1⟩, ⟨%d2, H2⟩⟩
        iapply ((runC c (grid0.coords t) (ms0 t) (hs0 t) (ms1 t) (hs1 t) (ms2 t) (hs2 t) accM accM_whole (not_first_of t h1) (upper_of t h2) (not_last_of t h3) (iblk m c 0 t) (iblk m c 1 t) (accBefore m c t.val t.isLt)).2 _ Set.univ _)
        isplitl [H0]; · iexact H0
        isplitl [H1]; · iexact H1
        isplitl [H2]; · iexact H2
        isplitl [HS]; · iexact HS
        iintro ⟨H0, H1, H2, HS⟩
        isplitl [HS Hg]
        · isplitl [HS]
          · unfold owns; iexists _; isplitr
            swap; · iexact HS
            ipureintro; rfl
          iexact Hg
        isplitl [Ho]; · iexact Ho
        isplitl [H0]; · iexact H0
        isplitl [H1]; · iexact H1
        iexists _; iexact H2
    · rw [leaves2_idle m c t (not_last_of_lower t h2)]
      unfold stepAcc; rw [dif_neg h1, dif_neg h2]
      iintro ⟨⟨HS, Hg⟩, Ho, ⟨%d0, H0⟩, ⟨%d1, H1⟩, ⟨%d2, H2⟩⟩
      iapply (runD c (grid0.coords t) (ms0 t) (hs0 t) (ms1 t) (hs1 t) (ms2 t) (hs2 t) accM accM_whole (not_first_of t h1) (not_upper_of t h2) (not_last_of_lower t h2) (iblk m c 0 t) (iblk m c 1 t) _ (accBefore m c t.val t.isLt) Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulator back at some contents. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos' m c _ _ (by rw [Fin.val_last]; have : cfg0.N = 256 := N_0; omega), PhiA_eq]
  iintro ⟨HS, Hg⟩
  isplitl [HS]
  · iexists _; iexact HS
  iexact Hg

/-! ## The run and the frame -/

set_option backward.isDefEq.respectTransparency.types false in
/-- Every weakly fair execution of the program terminates without a fault, every array of the pipeline ending at what
    the proof data says and every other buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Body

end
-- ==== Proof.PairEnergy.lean ====
/-
  The quantity both programs compute, written once over the extended reals.

  Particles are numbered 0 … 8191 and each has three coordinates.  For an ordered pair (i, j) let d be the squared
  distance of the two particles.  The pair COUNTS when i is numbered before j and d < 6.25 (the cutoff radius 2.5,
  squared).  A counted pair contributes 4 · (s⁶ · s⁶ − s⁶) with s⁶ = (1/d)³ — the Lennard-Jones energy 4 (r⁻¹² − r⁻⁶) —
  and any other pair contributes 0; the reciprocal is taken of d for a counted pair and of 1 otherwise, so that no
  uncounted pair divides by a vanishing distance.  The energy is the sum of the contributions over all ordered pairs.

  Because a pair with j ≤ i never counts, the double sum may be taken over square blocks of 512 × 512 pairs and the
  blocks strictly below the diagonal dropped: that is the arrangement of `blockSum`.
-/
import Idealize.ShloMosaic.PureOps.Ideal
import Idealize.ShloMosaic.Lib.ValueIdx

noncomputable section

open scoped BigOperators

namespace Cert.LJ

open Idealize.ShloMosaic

/-- The squared distance of the points (a0, a1, a2) and (b0, b1, b2), the three squares added left to right. -/
def sqDist (a0 a1 a2 b0 b1 b2 : EReal) : EReal :=
  (a0 - b0) * (a0 - b0) + (a1 - b1) * (a1 - b1) + (a2 - b2) * (a2 - b2)

/-- Whether a pair counts: `lt` says the first particle is numbered before the second, and the squared distance `d`
    must be below 6.25. -/
def counted (lt : BitVec 1) (d : EReal) : BitVec 1 :=
  IntOp.andi lt (Ideal.cmp .olt d (Ideal.ofBits .f32 0x40C80000#32))

/-- (1/d)³ for a counted pair, (1/1)³ for another. -/
def invCube (b : BitVec 1) (d : EReal) : EReal :=
  Ideal.div (Ideal.ofBits .f32 0x3F800000#32) (Scalar.select b d (Ideal.ofBits .f32 0x3F800000#32))
    * Ideal.div (Ideal.ofBits .f32 0x3F800000#32) (Scalar.select b d (Ideal.ofBits .f32 0x3F800000#32))
    * Ideal.div (Ideal.ofBits .f32 0x3F800000#32) (Scalar.select b d (Ideal.ofBits .f32 0x3F800000#32))

/-- A pair's contribution from the bit `b` (it counts) and its squared distance: 4 (s⁶ s⁶ − s⁶), or 0. -/
def pairTerm (b : BitVec 1) (d : EReal) : EReal :=
  Scalar.select b (Ideal.ofBits .f32 0x40800000#32 * (invCube b d * invCube b d - invCube b d))
    (Ideal.ofBits .f32 0x00000000#32)

/-- A pair's contribution from the order bit and the six coordinates. -/
def pairOf (lt : BitVec 1) (a0 a1 a2 b0 b1 b2 : EReal) : EReal :=
  pairTerm (counted lt (sqDist a0 a1 a2 b0 b1 b2)) (sqDist a0 a1 a2 b0 b1 b2)

/-- The contribution of the ordered pair (i, j) of the configuration `x`. -/
def pairE (x : Fin 8192 → Fin 3 → EReal) (i j : Fin 8192) : EReal :=
  pairOf (IntOp.cmpi .slt (BitVec.ofNat 32 i.val) (BitVec.ofNat 32 j.val)) (x i 0) (x i 1) (x i 2) (x j 0) (x j 1) (x j 2)

/-- The energy: every ordered pair's contribution, added. -/
def energy (x : Fin 8192 → Fin 3 → EReal) : EReal := ∑ i : Fin 8192, ∑ j : Fin 8192, pairE x i j

/-- Row r of block ib is particle 512 · ib + r. -/
def inBlock (ib : Fin 16) (r : Fin 512) : Fin 8192 := ⟨512 * ib.val + r.val, by omega⟩

/-- The contributions of the 512 × 512 pairs whose first particle lies in block `ib` and second in block `jb`. -/
def blockSum (x : Fin 8192 → Fin 3 → EReal) (ib jb : Fin 16) : EReal :=
  ∑ r : Fin 512, ∑ c : Fin 512, pairE x (inBlock ib r) (inBlock jb c)

end Cert.LJ

end
-- ==== Proof.BlockTotal.lean ====
/-
  What one grid step adds to the running total, read at the extended reals.

  A grid step handles a square block of 512 × 512 ordered pairs: row r of the block is a particle of block-row arg0,
  column c a particle of block-column arg1.  The body forms, for every (r, c) at once, the squared distance of the two
  particles, the bit "the pair counts" (the row particle is numbered before the column particle, and the squared
  distance is below 6.25), the term s⁶ s⁶ − s⁶ with s⁶ = (1/d)³, multiplies by 4, keeps the counted entries, and adds the
  512 × 512 entries up: first along each row, then down the column of row sums.  The result is added to the running total.

  Below each of those vectors is read at one entry (r, c), where it is the corresponding scalar quantity of the
  energy's definition; the two sums are read as sums over the coordinates; and the whole is the running total plus the double
  sum of the pairs' contributions.  For block numbers below 16 the integer comparison of the global row and column
  numbers is the comparison of the particle numbers 512 · ib + r and 512 · jb + c, since nothing overflows 32 bits.
-/
import proofs.«101726_j13400297963575_1_alg».proof.Proof.Gen.KernelIdeal.Skeleton
import proofs.«101726_j13400297963575_1_alg».proof.Proof.PairEnergy
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BlockTotal

open Idealize.ShloMosaic Idealize.ShloMosaic.ValueIdx Cert.KernelIdeal Cert.KernelIdeal.Gen

/-! ## Columns: a column repeated along the lanes, and a vector viewed as a column, read at an entry -/

section Columns
variable {α : Type}

/-- An [a, 1] column broadcast to [a, b] reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to an [a, 1] column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Columns

variable [Cert.KernelIdeal.Facts]

/-! ## The three vectors at one entry -/

/-- The order bit at entry (r, c) of the block (arg0, arg1): global row number below global column number, as signed
    32-bit words. -/
def orderBit (arg0 arg1 : BitVec 32) (r c : Fin 512) : BitVec 1 :=
  IntOp.cmpi .slt (IntOp.addi (IntOp.muli arg0 512#32) (BitVec.ofNat 32 r.val))
    (IntOp.addi (IntOp.muli arg1 512#32) (BitVec.ofNat 32 c.val))

/-- The vector of squared distances at (r, c) is the squared distance of row particle r and column particle c. -/
theorem dist_apply (v9 v10 v11 : Vec Ideal S512x1 .f32) (v12 v14 v16 : Vec Ideal S1x512 .f32) (r c : Fin 512) :
    k0_pay4 (F := Ideal) v9 v10 v11 v12 v14 v16 (ix2 r c)
      = Cert.LJ.sqDist (v9 (ix2 r 0)) (v10 (ix2 r 0)) (v11 (ix2 r 0)) (v12 (ix2 0 c)) (v14 (ix2 0 c)) (v16 (ix2 0 c)) := by
  unfold k0_pay4 Cert.LJ.sqDist
  simp only [shapeCast_self, addf_apply, mulf_apply, subf_apply]
  rw [broadcastTo_a1_ab_apply v9, broadcastTo_a1_ab_apply v10, broadcastTo_a1_ab_apply v11,
    broadcastTo_1b_ab_apply v12, broadcastTo_1b_ab_apply v14, broadcastTo_1b_ab_apply v16]

/-- The mask at (r, c) is the bit "the pair counts": the order bit, and the squared distance below 6.25. -/
theorem mask_apply (arg0 arg1 : BitVec 32) (v9 v10 v11 : Vec Ideal S512x1 .f32) (v12 v14 v16 : Vec Ideal S1x512 .f32)
    (r c : Fin 512) :
    k0_pay5 (F := Ideal) arg0 arg1 v9 v10 v11 v12 v14 v16 (ix2 r c)
      = Cert.LJ.counted (orderBit arg0 arg1 r c)
          (Cert.LJ.sqDist (v9 (ix2 r 0)) (v10 (ix2 r 0)) (v11 (ix2 r 0)) (v12 (ix2 0 c)) (v14 (ix2 0 c)) (v16 (ix2 0 c))) := by
  rw [← dist_apply]
  unfold k0_pay5 Cert.LJ.counted orderBit
  show IntOp.andi (IntOp.cmpi .slt
      (IntOp.addi (IntOp.muli arg0 512#32) (iota .tc S512x512 32 [0] iota_S512x512_d0_w32 (ix2 r c)))
      (IntOp.addi (IntOp.muli arg1 512#32) (iota .tc S512x512 32 [1] iota_S512x512_d1_w32 (ix2 r c)))) _ = _
  rw [iota_single_apply, iota_single_apply]
  rfl

/-- The term vector at (r, c) is s⁶ s⁶ − s⁶ of the pair, with s⁶ taken by the pair's own mask bit. -/
theorem term_apply (arg0 arg1 : BitVec 32) (v9 v10 v11 : Vec Ideal S512x1 .f32) (v12 v14 v16 : Vec Ideal S1x512 .f32)
    (r c : Fin 512) :
    k0_pay6 (F := Ideal) arg0 arg1 v9 v10 v11 v12 v14 v16 (ix2 r c)
      = Cert.LJ.invCube (k0_pay5 (F := Ideal) arg0 arg1 v9 v10 v11 v12 v14 v16 (ix2 r c))
            (k0_pay4 (F := Ideal) v9 v10 v11 v12 v14 v16 (ix2 r c))
          * Cert.LJ.invCube (k0_pay5 (F := Ideal) arg0 arg1 v9 v10 v11 v12 v14 v16 (ix2 r c))
            (k0_pay4 (F := Ideal) v9 v10 v11 v12 v14 v16 (ix2 r c))
        - Cert.LJ.invCube (k0_pay5 (F := Ideal) arg0 arg1 v9 v10 v11 v12 v14 v16 (ix2 r c))
            (k0_pay4 (F := Ideal) v9 v10 v11 v12 v14 v16 (ix2 r c)) := by
  unfold k0_pay6 Cert.LJ.invCube
  rfl

/-- Four times the term, kept where the mask is set, is the pair's contribution. -/
theorem entry_apply (arg0 arg1 : BitVec 32) (v9 v10 v11 : Vec Ideal S512x1 .f32) (v12 v14 v16 : Vec Ideal S1x512 .f32)
    (r c : Fin 512) :
    Scalar.select (k0_pay5 (F := Ideal) arg0 arg1 v9 v10 v11 v12 v14 v16 (ix2 r c))
        (Ideal.ofBits .f32 0x40800000#32 * k0_pay6 (F := Ideal) arg0 arg1 v9 v10 v11 v12 v14 v16 (ix2 r c))
        (Ideal.ofBits .f32 0x00000000#32)
      = Cert.LJ.pairOf (orderBit arg0 arg1 r c) (v9 (ix2 r 0)) (v10 (ix2 r 0)) (v11 (ix2 r 0)) (v12 (ix2 0 c))
          (v14 (ix2 0 c)) (v16 (ix2 0 c)) := by
  rw [term_apply, mask_apply, dist_apply]
  rfl

/-- The source entry over row r with lane c inserted is (r, c). -/
theorem lift_lane (r c : Fin 512) : reduces_S512x512_S512.lift (ix1 r) c = ix2 r c := by
  funext a
  match a with
  | ⟨0, _⟩ => rfl
  | ⟨1, _⟩ => rfl

/-- The source entry of the column of row sums over the one total with row r inserted is (r, 0). -/
theorem lift_row (r : Fin 512) : reduces_S512x1_S1.lift (ix1 (0 : Fin 1)) r = ix2 r (0 : Fin 1) := by
  funext a
  match a with
  | ⟨0, _⟩ => rfl
  | ⟨1, _⟩ => rfl

/-- The stored total: the running total plus the sum, over the rows and then the lanes of the block, of four times the
    term where the mask is set and 0 elsewhere. -/
theorem pay2_apply (v43 : IVec S512x512 1) (v51 : FVec Ideal S512x512 .f32) (v60 : Vec Ideal S1x1 .f32) :
    k0_pay2 (F := Ideal) v43 v51 v60 (ix2 0 0)
      = v60 (ix2 0 0) + ∑ r : Fin 512, ∑ c : Fin 512,
          Scalar.select (v43 (ix2 r c)) (Ideal.ofBits .f32 0x40800000#32 * v51 (ix2 r c)) (Ideal.ofBits .f32 0x00000000#32) := by
  unfold k0_pay2
  rw [shapeCast_self, addf_apply]
  refine congrArg (v60 (ix2 0 0) + ·) ?_
  refine (shapeCast_a_a1_apply _ shapeCasts_S1_S1x1 (0 : Fin 1) (0 : Fin 1)).trans ?_
  refine (Ideal.multiReduction_add_single _ _ reduces_S512x1_S1 _ _ (ix1 (0 : Fin 1))).trans ?_
  refine Finset.sum_congr rfl fun r _ => ?_
  rw [lift_row r]
  refine (shapeCast_a_a1_apply _ shapeCasts_S512_S512x1 r (0 : Fin 1)).trans ?_
  refine (Ideal.multiReduction_add_single _ _ reduces_S512x512_S512 _ _ (ix1 r)).trans ?_
  refine Finset.sum_congr rfl fun c _ => ?_
  rw [lift_lane r c]
  rfl

/-- THE BLOCK'S TOTAL: what the step stores is the running total plus the contributions of the block's 512 × 512 pairs. -/
theorem total_apply (arg0 arg1 : BitVec 32) (v9 v10 v11 : Vec Ideal S512x1 .f32) (v12 v14 v16 : Vec Ideal S1x512 .f32)
    (v60 : Vec Ideal S1x1 .f32) :
    k0_pay2 (F := Ideal) (k0_pay5 (F := Ideal) arg0 arg1 v9 v10 v11 v12 v14 v16)
        (k0_pay6 (F := Ideal) arg0 arg1 v9 v10 v11 v12 v14 v16) v60 (ix2 0 0)
      = v60 (ix2 0 0) + ∑ r : Fin 512, ∑ c : Fin 512,
          Cert.LJ.pairOf (orderBit arg0 arg1 r c) (v9 (ix2 r 0)) (v10 (ix2 r 0)) (v11 (ix2 r 0)) (v12 (ix2 0 c))
            (v14 (ix2 0 c)) (v16 (ix2 0 c)) := by
  rw [pay2_apply]
  refine congrArg (v60 (ix2 0 0) + ·) ?_
  exact Finset.sum_congr rfl fun r _ => Finset.sum_congr rfl fun c _ =>
    entry_apply arg0 arg1 v9 v10 v11 v12 v14 v16 r c

/-! ## Block numbers below 16: the order bit is the particle numbers' -/

/-- Row r of block ib has global number 512 · ib + r, as a 32-bit word too: nothing overflows. -/
theorem global_word (ib : Fin 16) (r : Fin 512) :
    IntOp.addi (IntOp.muli (BitVec.ofNat 32 ib.val) 512#32) (BitVec.ofNat 32 r.val)
      = BitVec.ofNat 32 (Cert.LJ.inBlock ib r).val := by
  show BitVec.ofNat 32 ib.val * 512#32 + BitVec.ofNat 32 r.val = BitVec.ofNat 32 (512 * ib.val + r.val)
  apply BitVec.eq_of_toNat_eq
  have hi := ib.isLt
  have hr := r.isLt
  simp only [BitVec.toNat_add, BitVec.toNat_mul, BitVec.toNat_ofNat]
  omega

/-- The order bit at block numbers is the comparison of the two particle numbers. -/
theorem orderBit_blocks (ib jb : Fin 16) (r c : Fin 512) :
    orderBit (BitVec.ofNat 32 ib.val) (BitVec.ofNat 32 jb.val) r c
      = IntOp.cmpi .slt (BitVec.ofNat 32 (Cert.LJ.inBlock ib r).val) (BitVec.ofNat 32 (Cert.LJ.inBlock jb c).val) := by
  unfold orderBit
  rw [global_word, global_word]

/-- When the loaded columns and rows are the coordinates of the particles of blocks ib and jb, the step stores the
    running total plus the block's share of the energy. -/
theorem total_blocks (x : Fin 8192 → Fin 3 → EReal) (ib jb : Fin 16) (v9 v10 v11 : Vec Ideal S512x1 .f32)
    (v12 v14 v16 : Vec Ideal S1x512 .f32) (v60 : Vec Ideal S1x1 .f32)
    (h9 : ∀ r : Fin 512, v9 (ix2 r 0) = x (Cert.LJ.inBlock ib r) 0)
    (h10 : ∀ r : Fin 512, v10 (ix2 r 0) = x (Cert.LJ.inBlock ib r) 1)
    (h11 : ∀ r : Fin 512, v11 (ix2 r 0) = x (Cert.LJ.inBlock ib r) 2)
    (h12 : ∀ c : Fin 512, v12 (ix2 0 c) = x (Cert.LJ.inBlock jb c) 0)
    (h14 : ∀ c : Fin 512, v14 (ix2 0 c) = x (Cert.LJ.inBlock jb c) 1)
    (h16 : ∀ c : Fin 512, v16 (ix2 0 c) = x (Cert.LJ.inBlock jb c) 2) :
    k0_pay2 (F := Ideal) (k0_pay5 (F := Ideal) (BitVec.ofNat 32 ib.val) (BitVec.ofNat 32 jb.val) v9 v10 v11 v12 v14 v16)
        (k0_pay6 (F := Ideal) (BitVec.ofNat 32 ib.val) (BitVec.ofNat 32 jb.val) v9 v10 v11 v12 v14 v16) v60 (ix2 0 0)
      = v60 (ix2 0 0) + Cert.LJ.blockSum x ib jb := by
  rw [total_apply]
  refine congrArg (v60 (ix2 0 0) + ·) ?_
  unfold Cert.LJ.blockSum Cert.LJ.pairE
  refine Finset.sum_congr rfl fun r _ => Finset.sum_congr rfl fun c _ => ?_
  rw [orderBit_blocks, h9, h10, h11, h12, h14, h16]

end Cert.KernelIdeal.BlockTotal

end
-- ==== Proof.BlockInputs.lean ====
/-
  What a grid step reads, and what the host does with the blocks' totals.

  A grid step (ib, jb) is handed two blocks of the positions: rows 512 · ib … of the position array [8192, 3] (its row
  particles, one per row, three coordinates across) and columns 512 · jb … of the transposed array [3, 8192] (its column
  particles, one per column, three coordinates down).  The body reads the first block a column at a time and the second
  a row at a time; each such read, at an entry, is the block at the entry with the coordinate's number put back.  It
  also reads the one entry (0, 0) of its running total.

  After the grid the host picks entry (0, 0) of each of the sixteen row blocks' totals and adds the sixteen numbers up.
-/
import proofs.«101726_j13400297963575_1_alg».proof.Proof.Gen.KernelIdeal.Frame
import proofs.«101726_j13400297963575_1_alg».proof.Proof.PairEnergy
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

open scoped BigOperators

namespace Cert.KernelIdeal.BlockInputs

open Idealize.ShloMosaic Idealize.ShloMosaic.ValueIdx Idealize.ShloMosaic.TcCoe Cert.KernelIdeal Cert.KernelIdeal.Gen

section AnyFacts
variable [Cert.KernelIdeal.Facts]

/-! ## The body's reads at an entry -/

section Loads
variable {F : FTy → Type}

/-- Column k of the row block, read at row r, is the block at (r, k). -/
theorem load_col (arg2 : Memref sig .tc .vmem S512x3 .f32) (harg2 : arg2.IsWhole) (x0 : Vec F S512x3 .f32) (k : Fin 3)
    (inb : ∀ a, (![0, k.val] : Fin 2 → Nat) a + S512x1.size a ≤ S512x3.size a) (r : Fin 512) :
    View.readAt (Elt F) arg2.view (Rect.unit (s := S512x3) ![0, k.val] S512x1.size inb).toLoadRect (harg2.unread x0)
        (ix2 r (0 : Fin 1)) = x0 (ix2 r k) := by
  refine (congrFun (harg2.read_unread x0) _).trans (congrArg x0 ?_)
  funext a
  match a with
  | ⟨0, _⟩ => exact Fin.ext (by show 0 + 1 * r.val = r.val; omega)
  | ⟨1, _⟩ => exact Fin.ext (by show k.val + 1 * 0 = k.val; omega)

/-- Row k of the column block, read at column c, is the block at (k, c). -/
theorem load_row (arg3 : Memref sig .tc .vmem S3x512 .f32) (harg3 : arg3.IsWhole) (x1 : Vec F S3x512 .f32) (k : Fin 3)
    (inb : ∀ a, (![k.val, 0] : Fin 2 → Nat) a + S1x512.size a ≤ S3x512.size a) (c : Fin 512) :
    View.readAt (Elt F) arg3.view (Rect.unit (s := S3x512) ![k.val, 0] S1x512.size inb).toLoadRect (harg3.unread x1)
        (ix2 (0 : Fin 1) c) = x1 (ix2 k c) := by
  refine (congrFun (harg3.read_unread x1) _).trans (congrArg x1 ?_)
  funext a
  match a with
  | ⟨0, _⟩ => exact Fin.ext (by show k.val + 1 * 0 = k.val; omega)
  | ⟨1, _⟩ => exact Fin.ext (by show 0 + 1 * c.val = c.val; omega)

/-- The six reads as the body makes them. -/
theorem load_col0 (arg2 : Memref sig .tc .vmem S512x3 .f32) (harg2 : arg2.IsWhole) (x0 : Vec F S512x3 .f32) (r : Fin 512) :
    View.readAt (Elt F) arg2.view (Rect.unit (s := S512x3) ![0, 0] S512x1.size inb_S512x3_S512x1_0_0).toLoadRect
        (harg2.unread x0) (ix2 r (0 : Fin 1)) = x0 (ix2 r (0 : Fin 3)) :=
  load_col arg2 harg2 x0 0 inb_S512x3_S512x1_0_0 r
theorem load_col1 (arg2 : Memref sig .tc .vmem S512x3 .f32) (harg2 : arg2.IsWhole) (x0 : Vec F S512x3 .f32) (r : Fin 512) :
    View.readAt (Elt F) arg2.view (Rect.unit (s := S512x3) ![0, 1] S512x1.size inb_S512x3_S512x1_0_1).toLoadRect
        (harg2.unread x0) (ix2 r (0 : Fin 1)) = x0 (ix2 r (1 : Fin 3)) :=
  load_col arg2 harg2 x0 1 inb_S512x3_S512x1_0_1 r
theorem load_col2 (arg2 : Memref sig .tc .vmem S512x3 .f32) (harg2 : arg2.IsWhole) (x0 : Vec F S512x3 .f32) (r : Fin 512) :
    View.readAt (Elt F) arg2.view (Rect.unit (s := S512x3) ![0, 2] S512x1.size inb_S512x3_S512x1_0_2).toLoadRect
        (harg2.unread x0) (ix2 r (0 : Fin 1)) = x0 (ix2 r (2 : Fin 3)) :=
  load_col arg2 harg2 x0 2 inb_S512x3_S512x1_0_2 r
theorem load_row0 (arg3 : Memref sig .tc .vmem S3x512 .f32) (harg3 : arg3.IsWhole) (x1 : Vec F S3x512 .f32) (c : Fin 512) :
    View.readAt (Elt F) arg3.view (Rect.unit (s := S3x512) ![0, 0] S1x512.size inb_S3x512_S1x512_0_0).toLoadRect
        (harg3.unread x1) (ix2 (0 : Fin 1) c) = x1 (ix2 (0 : Fin 3) c) :=
  load_row arg3 harg3 x1 0 inb_S3x512_S1x512_0_0 c
theorem load_row1 (arg3 : Memref sig .tc .vmem S3x512 .f32) (harg3 : arg3.IsWhole) (x1 : Vec F S3x512 .f32) (c : Fin 512) :
    View.readAt (Elt F) arg3.view (Rect.unit (s := S3x512) ![1, 0] S1x512.size inb_S3x512_S1x512_1_0).toLoadRect
        (harg3.unread x1) (ix2 (0 : Fin 1) c) = x1 (ix2 (1 : Fin 3) c) :=
  load_row arg3 harg3 x1 1 inb_S3x512_S1x512_1_0 c
theorem load_row2 (arg3 : Memref sig .tc .vmem S3x512 .f32) (harg3 : arg3.IsWhole) (x1 : Vec F S3x512 .f32) (c : Fin 512) :
    View.readAt (Elt F) arg3.view (Rect.unit (s := S3x512) ![2, 0] S1x512.size inb_S3x512_S1x512_2_0).toLoadRect
        (harg3.unread x1) (ix2 (0 : Fin 1) c) = x1 (ix2 (2 : Fin 3) c) :=
  load_row arg3 harg3 x1 2 inb_S3x512_S1x512_2_0 c

/-- The running total's entry: the one entry read of the scratch tile is its entry (0, 0). -/
theorem load_total (arg5 : Memref sig .tc .vmem S8x128 .f32) (harg5 : arg5.IsWhole) (s : Vec F S8x128 .f32) :
    View.readAt (Elt F) arg5.view (Rect.unit (s := S8x128) ![0, 0] S1x1.size inb_S8x128_S1x1_0_0).toLoadRect
        (harg5.unread s) (ix2 (0 : Fin 1) (0 : Fin 1)) = s (ix2 (0 : Fin 8) (0 : Fin 128)) := by
  refine (congrFun (harg5.read_unread s) _).trans (congrArg s ?_)
  funext a
  match a with
  | ⟨0, _⟩ => rfl
  | ⟨1, _⟩ => rfl

end Loads

/-! ## The host's last lines: the sixteen row totals added -/

/-- A sum over a rank-one index set is the sum over its coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    fun i => congrArg f (eq_ix1 i)

/-- Whatever the buffers hold when the host's last four lines start, with X the array of the blocks' totals
    [16, 8, 128] among them, the scalar they leave is the sum over the sixteen row blocks of X at (ib, 0, 0): the slice
    picks those sixteen entries, the reshape lists them, and the reduction adds them to the constant 0. -/
theorem host_tail (W : Valuation τ sig (Elt Ideal)) (X : (⟨S16x8x128, .f32⟩ : BufTy).Contents (Elt Ideal))
    (hX : W (Proc.devRef .tc main_v1) = X) :
    StableHlo.after (hostOps1 (F := Ideal)) W (Proc.devRef .tc main_v4)
      = fun _ => ∑ ib : Fin 16, X (ix3 ib (0 : Fin 8) (0 : Fin 128)) := by
  open StableHlo in after_results
  rw [hX]
  funext j
  simp only [Host.reduceAdd, Ideal.hostReduceAdd_def]
  rw [Ideal.hostReduceAdd_total reducesTo_S16_S_d0 (fun b => b.elim0)]
  show Ideal.ofBits .f32 0x00000000#32 + _ = _
  rw [Ideal.ofBits_zero_f32, zero_add]
  refine (sum_idx1 (n := 16) _).trans (Finset.sum_congr rfl fun ib _ => ?_)
  refine (shapeCast_apply _ shapeCasts_S16x1x1_S16 (ix1 ib) (ix3 ib (0 : Fin 1) (0 : Fin 1)) ?_).trans ?_
  · rw [Shape.rowMajor_val_three, Shape.rowMajor_val_one]
    show (ib.val * 1 + 0) * 1 + 0 = ib.val
    omega
  · refine extractStridedSlice_apply _ X slices_S16x8x128_S16x1x1_0_0_0 _ (ix3 ib (0 : Fin 8) (0 : Fin 128)) fun a => ?_
    match a with
    | ⟨0, _⟩ => exact (Nat.zero_add _).symm
    | ⟨1, _⟩ => rfl
    | ⟨2, _⟩ => rfl

end AnyFacts

/-! ## The two blocks a grid step is handed, in terms of the positions

The 256 grid steps are numbered row by row on the 16 × 16 grid: step t has row block t / 16 and column block t % 16. -/

/-- The block numbers of the two input windows at every grid step, decided over the 256 steps. -/
theorem idx_facts : ∀ t : Fin cfg0.N, win0_0.index t (0 : Fin 2) = t.val / 16 ∧ win0_0.index t (1 : Fin 2) = 0
    ∧ win0_1.index t (0 : Fin 2) = 0 ∧ win0_1.index t (1 : Fin 2) = t.val % 16 :=
  (by decide +kernel : ∀ t : Fin grid0.N, _)

/-- The row block of step t. -/
abbrev rowBlock (t : Fin cfg0.N) : Fin 16 :=
  ⟨t.val / 16, by have := t.isLt; have : cfg0.N = 256 := Gen.N_0; omega⟩
/-- The column block of step t. -/
abbrev colBlock (t : Fin cfg0.N) : Fin 16 := ⟨t.val % 16, Nat.mod_lt _ (by decide)⟩

section Blocks
variable {F : FTy → Type} [FloatOps F]

/-- The first window's block at step t, at (r, k), is coordinate k of particle r of the step's row block. -/
theorem iblk0_apply (m : (ℓ : Loc nD τ sig) → Buf (Elt F) ℓ) (c : Dev nD) (t : Fin cfg0.N) (r : Fin 512) (k : Fin 3) :
    Gen.iblk m c 0 t (ix2 r k)
      = m ((c : Thread nD τ).loc main_arg0) (ix2 (Cert.LJ.inBlock (rowBlock t) r) k) := by
  unfold Gen.iblk
  show V m c main_arg0 (((cfg0.win 0).blk t).view.emb (ix2 r k)) = _
  rw [Gen.V_main_arg0]
  refine congrArg _ ?_
  obtain ⟨e0, e1, -, -⟩ := idx_facts t
  funext a; apply Fin.ext
  match a with
  | ⟨0, _⟩ => show win0_0.index t (0 : Fin 2) * 512 + 1 * r.val = 512 * (t.val / 16) + r.val; omega
  | ⟨1, _⟩ => show win0_0.index t (1 : Fin 2) * 3 + 1 * k.val = k.val; omega

/-- The second window's array, when the grid starts, is the positions transposed: the one host line before the grid
    writes it. -/
theorem V_main_v0 (m : (ℓ : Loc nD τ sig) → Buf (Elt F) ℓ) (c : Dev nD) :
    V m c main_v0 = transpose S3x8192 [1, 0] (m ((c : Thread nD τ).loc main_arg0)) transposes_S8192x3_S3x8192_1_0 := by
  show StableHlo.after (List.flatten [hostOps0]) (fun b => m (c, b)) (Proc.devRef .tc main_v0) = _
  simp only [List.flatten_cons, List.flatten_nil, List.append_nil]
  open StableHlo in after_results

/-- The second window's block at step t, at (k, cc), is coordinate k of particle cc of the step's column block. -/
theorem iblk1_apply (m : (ℓ : Loc nD τ sig) → Buf (Elt F) ℓ) (c : Dev nD) (t : Fin cfg0.N) (k : Fin 3) (cc : Fin 512) :
    Gen.iblk m c 1 t (ix2 k cc)
      = m ((c : Thread nD τ).loc main_arg0) (ix2 (Cert.LJ.inBlock (colBlock t) cc) k) := by
  unfold Gen.iblk
  show V m c main_v0 (((cfg0.win 1).blk t).view.emb (ix2 k cc)) = _
  rw [V_main_v0]
  obtain ⟨-, -, e2, e3⟩ := idx_facts t
  refine transpose_apply [1, 0] _ transposes_S8192x3_S3x8192_1_0 _ (ix2 (Cert.LJ.inBlock (colBlock t) cc) k) fun b => ?_
  match b with
  | ⟨0, _⟩ => show k.val = win0_1.index t (0 : Fin 2) * 3 + 1 * k.val; omega
  | ⟨1, _⟩ => show 512 * (t.val % 16) + cc.val = win0_1.index t (1 : Fin 2) * 512 + 1 * cc.val; omega

end Blocks

end Cert.KernelIdeal.BlockInputs

end
-- ==== Proof.AccEntry.lean ====
/-
  Entry (0, 0) of the accumulator after one grid point, at the extended reals.  The body's one store into that entry
  holds the entry loaded just before plus the sum, over the 512 × 512 pairs of the point's two blocks, of the pairs'
  contributions; the zero fill holds zero everywhere; and the copy to the output block at the last column puts the
  accumulator's entry (0, 0) at the block's entry (0, 0, 0).
-/
import proofs.«101726_j13400297963575_1_alg».proof.Proof.CarriedIdeal
import proofs.«101726_j13400297963575_1_alg».proof.Proof.BlockTotal
import proofs.«101726_j13400297963575_1_alg».proof.Proof.BlockInputs
import Idealize.ShloMosaic.Lib.WritesUnit

set_option maxRecDepth 16384

noncomputable section

open scoped BigOperators

namespace Cert.KernelIdeal.Energy

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Body Cert.KernelIdeal.BlockTotal Cert.KernelIdeal.BlockInputs Cert.LJ

theorem zero2 : (![0, 0] : Fin 2 → Nat) = fun _ => 0 := funext fun a => by fin_cases a <;> rfl
theorem zero3 : (![0, 0, 0] : Fin 3 → Nat) = fun _ => 0 := funext fun a => by fin_cases a <;> rfl

/-- The zero fill is zero everywhere. -/
theorem zeros_apply (y : S8x128.Idx) : k0_pay1 (F := Ideal) y = 0 := by
  unfold k0_pay1
  rw [shapeCast_self]
  exact Ideal.ofBits_zero_f32

/-- The value stored into entry (0, 0): the entry loaded before it plus the block's total. -/
theorem added (i : grid0.Coords) (arg2 : Memref sig .tc .vmem S512x3 .f32) (harg2 : arg2.IsWhole) (arg3 : Memref sig .tc .vmem S3x512 .f32) (harg3 : arg3.IsWhole) (arg4 : Memref sig .tc .vmem S1x8x128 .f32) (harg4 : arg4.IsWhole) (arg5 : Memref sig .tc .vmem S8x128 .f32) (harg5 : arg5.IsWhole) (x0 : Vec Ideal S512x3 .f32) (x1 : Vec Ideal S3x512 .f32)
    (x : Fin 8192 → Fin 3 → EReal) (ib jb : Fin 16) (hi0 : (i 0).val = ib.val) (hi1 : (i 1).val = jb.val)
    (hx0 : ∀ (r : Fin 512) (k : Fin 3), x0 (ix2 r k) = x (inBlock ib r) k) (hx1 : ∀ (k : Fin 3) (cc : Fin 512), x1 (ix2 k cc) = x (inBlock jb cc) k) (v60 : Vec Ideal S1x1 .f32) :
    k0_pay2 (F := Ideal)
      (k0_pay5 (F := Ideal) (BitVec.ofNat 32 (i 0).val) (BitVec.ofNat 32 (i 1).val)
        (View.readAt (Elt Ideal) arg2.view (Rect.unit (s := S512x3) ![0, 0] S512x1.size inb_S512x3_S512x1_0_0).toLoadRect (harg2.unread x0))
        (View.readAt (Elt Ideal) arg2.view (Rect.unit (s := S512x3) ![0, 1] S512x1.size inb_S512x3_S512x1_0_1).toLoadRect (harg2.unread x0))
        (View.readAt (Elt Ideal) arg2.view (Rect.unit (s := S512x3) ![0, 2] S512x1.size inb_S512x3_S512x1_0_2).toLoadRect (harg2.unread x0))
        (View.readAt (Elt Ideal) arg3.view (Rect.unit (s := S3x512) ![0, 0] S1x512.size inb_S3x512_S1x512_0_0).toLoadRect (harg3.unread x1))
        (View.readAt (Elt Ideal) arg3.view (Rect.unit (s := S3x512) ![1, 0] S1x512.size inb_S3x512_S1x512_1_0).toLoadRect (harg3.unread x1))
        (View.readAt (Elt Ideal) arg3.view (Rect.unit (s := S3x512) ![2, 0] S1x512.size inb_S3x512_S1x512_2_0).toLoadRect (harg3.unread x1)))
      (k0_pay6 (F := Ideal) (BitVec.ofNat 32 (i 0).val) (BitVec.ofNat 32 (i 1).val)
        (View.readAt (Elt Ideal) arg2.view (Rect.unit (s := S512x3) ![0, 0] S512x1.size inb_S512x3_S512x1_0_0).toLoadRect (harg2.unread x0))
        (View.readAt (Elt Ideal) arg2.view (Rect.unit (s := S512x3) ![0, 1] S512x1.size inb_S512x3_S512x1_0_1).toLoadRect (harg2.unread x0))
        (View.readAt (Elt Ideal) arg2.view (Rect.unit (s := S512x3) ![0, 2] S512x1.size inb_S512x3_S512x1_0_2).toLoadRect (harg2.unread x0))
        (View.readAt (Elt Ideal) arg3.view (Rect.unit (s := S3x512) ![0, 0] S1x512.size inb_S3x512_S1x512_0_0).toLoadRect (harg3.unread x1))
        (View.readAt (Elt Ideal) arg3.view (Rect.unit (s := S3x512) ![1, 0] S1x512.size inb_S3x512_S1x512_1_0).toLoadRect (harg3.unread x1))
        (View.readAt (Elt Ideal) arg3.view (Rect.unit (s := S3x512) ![2, 0] S1x512.size inb_S3x512_S1x512_2_0).toLoadRect (harg3.unread x1)))
      v60 (ix2 0 0)
      = v60 (ix2 0 0) + blockSum x ib jb := by
  rw [hi0, hi1]
  exact total_blocks x ib jb _ _ _ _ _ _ v60
    (fun r => (load_col0 arg2 harg2 x0 r).trans (hx0 r 0)) (fun r => (load_col1 arg2 harg2 x0 r).trans (hx0 r 1)) (fun r => (load_col2 arg2 harg2 x0 r).trans (hx0 r 2))
    (fun cc => (load_row0 arg3 harg3 x1 cc).trans (hx1 0 cc)) (fun cc => (load_row1 arg3 harg3 x1 cc).trans (hx1 1 cc)) (fun cc => (load_row2 arg3 harg3 x1 cc).trans (hx1 2 cc))

/-- A block on or above the diagonal between the first and the last column: entry (0, 0) gains the block's total. -/
theorem entryC (c : Dev nD) (i : grid0.Coords) (arg2 : Memref sig .tc .vmem S512x3 .f32) (harg2 : arg2.IsWhole) (arg3 : Memref sig .tc .vmem S3x512 .f32) (harg3 : arg3.IsWhole) (arg4 : Memref sig .tc .vmem S1x8x128 .f32) (harg4 : arg4.IsWhole) (arg5 : Memref sig .tc .vmem S8x128 .f32) (harg5 : arg5.IsWhole) (hc1 : ¬isFirst i) (hc2 : isUpper i) (hc3 : ¬isLast i) (x0 : Vec Ideal S512x3 .f32) (x1 : Vec Ideal S3x512 .f32) (s : Vec Ideal S8x128 .f32)
    (x : Fin 8192 → Fin 3 → EReal) (ib jb : Fin 16) (hi0 : (i 0).val = ib.val) (hi1 : (i 1).val = jb.val)
    (hx0 : ∀ (r : Fin 512) (k : Fin 3), x0 (ix2 r k) = x (inBlock ib r) k) (hx1 : ∀ (k : Fin 3) (cc : Fin 512), x1 (ix2 k cc) = x (inBlock jb cc) k) :
    arg5.view.read (Elt Ideal) (arg5.view.writes (Elt Ideal) (harg5.unread s) (runC c i arg2 harg2 arg3 harg3 arg4 harg4 arg5 harg5 hc1 hc2 hc3 x0 x1 s).1) (ix2 0 0)
      = s (ix2 0 0) + blockSum x ib jb := by
  unfold runC
  dsimp only
  sl_unfold_words
  refine (View.read_writes_cons_unit_of_mem arg5.view _ _ _ _ (ix2 (0 : Fin 8) (0 : Fin 128)) (ix2 (0 : Fin 1) (0 : Fin 1)) rfl (fun a => by fin_cases a <;> rfl)).trans ?_
  exact (added i arg2 harg2 arg3 harg3 arg4 harg4 arg5 harg5 x0 x1 x ib jb hi0 hi1 hx0 hx1 _).trans (congrArg (· + blockSum x ib jb) (load_total arg5 harg5 s))

/-- The same at the last column block. -/
theorem entryE (c : Dev nD) (i : grid0.Coords) (arg2 : Memref sig .tc .vmem S512x3 .f32) (harg2 : arg2.IsWhole) (arg3 : Memref sig .tc .vmem S3x512 .f32) (harg3 : arg3.IsWhole) (arg4 : Memref sig .tc .vmem S1x8x128 .f32) (harg4 : arg4.IsWhole) (arg5 : Memref sig .tc .vmem S8x128 .f32) (harg5 : arg5.IsWhole) (hc1 : ¬isFirst i) (hc2 : isUpper i) (hc3 : isLast i) (x0 : Vec Ideal S512x3 .f32) (x1 : Vec Ideal S3x512 .f32) (s : Vec Ideal S8x128 .f32)
    (x : Fin 8192 → Fin 3 → EReal) (ib jb : Fin 16) (hi0 : (i 0).val = ib.val) (hi1 : (i 1).val = jb.val)
    (hx0 : ∀ (r : Fin 512) (k : Fin 3), x0 (ix2 r k) = x (inBlock ib r) k) (hx1 : ∀ (k : Fin 3) (cc : Fin 512), x1 (ix2 k cc) = x (inBlock jb cc) k) :
    arg5.view.read (Elt Ideal) (arg5.view.writes (Elt Ideal) (harg5.unread s) (runE c i arg2 harg2 arg3 harg3 arg4 harg4 arg5 harg5 hc1 hc2 hc3 x0 x1 s).2.1) (ix2 0 0)
      = s (ix2 0 0) + blockSum x ib jb := by
  unfold runE
  dsimp only
  sl_unfold_words
  refine (View.read_writes_cons_unit_of_mem arg5.view _ _ _ _ (ix2 (0 : Fin 8) (0 : Fin 128)) (ix2 (0 : Fin 1) (0 : Fin 1)) rfl (fun a => by fin_cases a <;> rfl)).trans ?_
  exact (added i arg2 harg2 arg3 harg3 arg4 harg4 arg5 harg5 x0 x1 x ib jb hi0 hi1 hx0 hx1 _).trans (congrArg (· + blockSum x ib jb) (load_total arg5 harg5 s))

/-- At the last column block the output block's entry (0, 0, 0) is the accumulator's entry (0, 0) as the point leaves it. -/
theorem outE (c : Dev nD) (i : grid0.Coords) (arg2 : Memref sig .tc .vmem S512x3 .f32) (harg2 : arg2.IsWhole) (arg3 : Memref sig .tc .vmem S3x512 .f32) (harg3 : arg3.IsWhole) (arg4 : Memref sig .tc .vmem S1x8x128 .f32) (harg4 : arg4.IsWhole) (arg5 : Memref sig .tc .vmem S8x128 .f32) (harg5 : arg5.IsWhole) (hc1 : ¬isFirst i) (hc2 : isUpper i) (hc3 : isLast i) (x0 : Vec Ideal S512x3 .f32) (x1 : Vec Ideal S3x512 .f32) (s : Vec Ideal S8x128 .f32)
    (v : View sig .tc .vmem S1x8x128 .f32) (f : v.ty.Contents (Elt Ideal)) :
    v.read (Elt Ideal) (v.writes (Elt Ideal) f (runE c i arg2 harg2 arg3 harg3 arg4 harg4 arg5 harg5 hc1 hc2 hc3 x0 x1 s).1) (ix3 0 0 0)
      = arg5.view.read (Elt Ideal) (arg5.view.writes (Elt Ideal) (harg5.unread s) (runE c i arg2 harg2 arg3 harg3 arg4 harg4 arg5 harg5 hc1 hc2 hc3 x0 x1 s).2.1) (ix2 0 0) := by
  unfold runE
  dsimp only
  sl_unfold_words
  refine (View.read_writes_cons_unit_of_mem v _ _ _ _ (ix3 (0 : Fin 1) (0 : Fin 8) (0 : Fin 128)) (ix3 (0 : Fin 1) (0 : Fin 8) (0 : Fin 128)) rfl (fun a => by fin_cases a <;> rfl)).trans ?_
  unfold k0_pay3
  refine (shapeCast_apply _ _ (ix3 (0 : Fin 1) (0 : Fin 8) (0 : Fin 128)) (ix2 (0 : Fin 8) (0 : Fin 128)) (by rw [Shape.rowMajor_val_two, Shape.rowMajor_val_three]; rfl)).trans ?_
  rw [View.readAt_eq_ld, View.ld_unit_zero (S := S8x128) zero2]

/-- At the grid's first point: zero, plus the diagonal block's total. -/
theorem entryA (c : Dev nD) (i : grid0.Coords) (arg2 : Memref sig .tc .vmem S512x3 .f32) (harg2 : arg2.IsWhole) (arg3 : Memref sig .tc .vmem S3x512 .f32) (harg3 : arg3.IsWhole) (arg4 : Memref sig .tc .vmem S1x8x128 .f32) (harg4 : arg4.IsWhole) (arg5 : Memref sig .tc .vmem S8x128 .f32) (harg5 : arg5.IsWhole) (hc1 : isFirst i) (hc2 : isUpper i) (hc3 : ¬isLast i) (x0 : Vec Ideal S512x3 .f32) (x1 : Vec Ideal S3x512 .f32)
    (x : Fin 8192 → Fin 3 → EReal) (ib jb : Fin 16) (hi0 : (i 0).val = ib.val) (hi1 : (i 1).val = jb.val)
    (hx0 : ∀ (r : Fin 512) (k : Fin 3), x0 (ix2 r k) = x (inBlock ib r) k) (hx1 : ∀ (k : Fin 3) (cc : Fin 512), x1 (ix2 k cc) = x (inBlock jb cc) k) (v : View sig .tc .vmem S8x128 .f32) (f : v.ty.Contents (Elt Ideal)) :
    v.read (Elt Ideal) (v.writes (Elt Ideal) f (runA c i arg2 harg2 arg3 harg3 arg4 harg4 arg5 harg5 hc1 hc2 hc3 x0 x1).1) (ix2 0 0)
      = 0 + blockSum x ib jb := by
  unfold runA
  dsimp only
  sl_unfold_words
  refine (View.read_writes_cons_unit_of_mem v _ _ _ _ (ix2 (0 : Fin 8) (0 : Fin 128)) (ix2 (0 : Fin 1) (0 : Fin 1)) rfl (fun a => by fin_cases a <;> rfl)).trans ?_
  refine (added i arg2 harg2 arg3 harg3 arg4 harg4 arg5 harg5 x0 x1 x ib jb hi0 hi1 hx0 hx1 _).trans (congrArg (· + blockSum x ib jb) ?_)
  rw [View.readCov_eq_canon', View.canon_unit_zero zero2]
  exact zeros_apply _

/-- At column block 0 of a later row: zero. -/
theorem entryB (c : Dev nD) (i : grid0.Coords) (arg2 : Memref sig .tc .vmem S512x3 .f32) (harg2 : arg2.IsWhole) (arg3 : Memref sig .tc .vmem S3x512 .f32) (harg3 : arg3.IsWhole) (arg4 : Memref sig .tc .vmem S1x8x128 .f32) (harg4 : arg4.IsWhole) (arg5 : Memref sig .tc .vmem S8x128 .f32) (harg5 : arg5.IsWhole) (hc1 : isFirst i) (hc2 : ¬isUpper i) (hc3 : ¬isLast i) (x0 : Vec Ideal S512x3 .f32) (x1 : Vec Ideal S3x512 .f32)
    (v : View sig .tc .vmem S8x128 .f32) (f : v.ty.Contents (Elt Ideal)) :
    v.read (Elt Ideal) (v.writes (Elt Ideal) f (runB c i arg2 harg2 arg3 harg3 arg4 harg4 arg5 harg5 hc1 hc2 hc3 x0 x1).1) (ix2 0 0) = 0 := by
  unfold runB
  dsimp only
  sl_unfold_words
  refine (View.read_writes_cons_unit_of_mem v _ _ _ _ (ix2 (0 : Fin 8) (0 : Fin 128)) (ix2 (0 : Fin 8) (0 : Fin 128)) rfl (fun a => by fin_cases a <;> rfl)).trans ?_
  exact zeros_apply _

end Cert.KernelIdeal.Energy

end
-- ==== Proof.OutputArray.lean ====
/-
  The output array after the run, row by row.

  The output array has 16 rows of 8 × 128 entries; the pipeline's window onto it is one row, row t / 16 at grid point t
  of the 256 points, and the row is written back only at the points t with t mod 16 = 15, the last column block of a row
  block.  So exactly one point writes row ib, the point 16 · ib + 15, and after the run row ib holds what that point left
  in the output block.
-/
import proofs.«101726_j13400297963575_1_alg».proof.Proof.CarriedIdeal
import Idealize.ShloMosaic.Lib.Pipeline.Value
import Idealize.ShloMosaic.Lib.ValueIdx
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last point of row block ib is one of the 256 points. -/
theorem lastOfRow_lt (k : ℕ) (hk : k < 16) : 16 * k + 15 < cfg0.N := by
  have : cfg0.N = 256 := N_0
  omega

/-- What point number n leaves in the output block, from what the accumulator held before it. -/
def leftAt (c : Dev nD) (n : ℕ) (hn : n < cfg0.N) : Vec F S1x8x128 .f32 :=
  outBlock m c ⟨n, hn⟩ (accBefore m c n hn)

/-- It depends on the point's number only. -/
theorem leftAt_congr (c : Dev nD) (n n' : ℕ) (hn : n < cfg0.N) (hn' : n' < cfg0.N) (e : n = n') :
    leftAt m c n hn = leftAt m c n' hn' := by
  subst e; rfl

/-- The whole output array as one function: row (y 0) is what the last point of row block (y 0) left. -/
def finalRows (c : Dev nD) : S16x8x128.Idx → Elt F .f32 := fun y =>
  leftAt m c (16 * (y 0).val + 15) (lastOfRow_lt _ (y 0).isLt) (ValueIdx.ix3 (0 : Fin 1) (y 1) (y 2))

/-- The window's block index at point t, decided once over the grid: row t / 16, and 0 on the two inner axes. -/
theorem outIndex : ∀ t : Fin cfg0.N, win0_2.index t (0 : Fin 3) = t.val / 16 ∧ win0_2.index t (1 : Fin 3) = 0
    ∧ win0_2.index t (2 : Fin 3) = 0 :=
  (by decide +kernel : ∀ t : Fin grid0.N, win0_2.index t (0 : Fin 3) = t.val / 16 ∧ win0_2.index t (1 : Fin 3) = 0
    ∧ win0_2.index t (2 : Fin 3) = 0)

/-- What a point that writes back writes is its block of the one whole-array function. -/
theorem flushed_eq_rows (c : Dev nD) (t : Fin cfg0.N) (hf : (cfg0.win 2).flush t = true) :
    (dats m 0 c).flushed 2 t = ((cfg0.win 2).blk t).view.read (Elt F) (finalRows m c) := by
  show (cfg0.win 2).cut (grid0.coords t) ((dats m 0 c).after 2 t) = _
  rw [after2]
  have h15 : t.val % 16 = 15 := (flush0_2 t).mp hf
  obtain ⟨e0, e1, e2⟩ := outIndex t
  funext j
  show leftAt m c t.val t.isLt ((cfg0.win 2).xinj (grid0.coords t) j) = finalRows m c (((cfg0.win 2).blk t).view.emb j)
  have hj0 : (j 0).val < 1 := (j 0).isLt
  have y0 : ((((cfg0.win 2).blk t).view.emb j) 0).val = win0_2.index t (0 : Fin 3) * 1 + 1 * (j 0).val := rfl
  have y1 : ((((cfg0.win 2).blk t).view.emb j) 1).val = win0_2.index t (1 : Fin 3) * 8 + 1 * (j 1).val := rfl
  have y2 : ((((cfg0.win 2).blk t).view.emb j) 2).val = win0_2.index t (2 : Fin 3) * 128 + 1 * (j 2).val := rfl
  unfold finalRows
  rw [leftAt_congr m c (16 * ((((cfg0.win 2).blk t).view.emb j) 0).val + 15) t.val _ t.isLt (by rw [y0, e0]; omega)]
  refine congrArg (leftAt m c t.val t.isLt) (funext fun a => Fin.ext ?_)
  match a with
  | ⟨0, _⟩ => show (j 0).val = 0; omega
  | ⟨1, _⟩ => show (j 1).val = ((((cfg0.win 2).blk t).view.emb j) 1).val; rw [y1, e1]; omega
  | ⟨2, _⟩ => show (j 2).val = ((((cfg0.win 2).blk t).view.emb j) 2).val; rw [y2, e2]; omega

/-- An index of the array is in point t's block exactly when each coordinate is in the block's range on its axis. -/
theorem mem_outBlk (t : Fin cfg0.N) (i : S16x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v1).slice (win0_2.rect t)).set ↔ _
  rw [View.set_slice_whole, Rect.mem_set_unit]
  exact Iff.rfl

/-- After the run, row ib of the output array is what point 16 · ib + 15 left in the output block. -/
theorem final_row (c : Dev nD) (ib : Fin 16) (a : Fin 8) (b : Fin 128) :
    (dats m 0 c).arrAt 2 cfg0.N (ValueIdx.ix3 ib a b)
      = outBlock m c ⟨16 * ib.val + 15, by have : cfg0.N = 256 := N_0; omega⟩
          (accBefore m c (16 * ib.val + 15) (by have : cfg0.N = 256 := N_0; omega)) (ValueIdx.ix3 (0 : Fin 1) a b) := by
  have hlt : 16 * ib.val + 15 < cfg0.N := lastOfRow_lt _ ib.isLt
  have hf : (cfg0.win 2).flush ⟨16 * ib.val + 15, hlt⟩ = true :=
    (flush0_2 ⟨16 * ib.val + 15, hlt⟩).mpr (by show (16 * ib.val + 15) % 16 = 15; omega)
  obtain ⟨e0, e1, e2⟩ := outIndex ⟨16 * ib.val + 15, hlt⟩
  have e0' : win0_2.index ⟨16 * ib.val + 15, hlt⟩ (0 : Fin 3) = (16 * ib.val + 15) / 16 := e0
  have hi : (ValueIdx.ix3 ib a b : S16x8x128.Idx) ∈ ((cfg0.win 2).blk ⟨16 * ib.val + 15, hlt⟩).view.set := by
    rw [mem_outBlk]
    intro k
    match k with
    | ⟨0, _⟩ =>
      show win0_2.index ⟨16 * ib.val + 15, hlt⟩ (0 : Fin 3) * 1 ≤ ib.val
        ∧ ib.val < win0_2.index ⟨16 * ib.val + 15, hlt⟩ (0 : Fin 3) * 1 + 1
      omega
    | ⟨1, _⟩ =>
      show win0_2.index ⟨16 * ib.val + 15, hlt⟩ (1 : Fin 3) * 8 ≤ a.val
        ∧ a.val < win0_2.index ⟨16 * ib.val + 15, hlt⟩ (1 : Fin 3) * 8 + 8
      have := a.isLt
      omega
    | ⟨2, _⟩ =>
      show win0_2.index ⟨16 * ib.val + 15, hlt⟩ (2 : Fin 3) * 128 ≤ b.val
        ∧ b.val < win0_2.index ⟨16 * ib.val + 15, hlt⟩ (2 : Fin 3) * 128 + 128
      have := b.isLt
      omega
  rw [(dats m 0 c).arrAt_apply_of_mem 2 (finalRows m c) (fun t hft => flushed_eq_rows m c t hft) cfg0.N
    ⟨16 * ib.val + 15, hlt⟩ (ValueIdx.ix3 ib a b) hlt hf hi]
  rfl

end Cert.KernelIdeal.Body

end
-- ==== Proof.LibCondAcc.lean ====
/-
  A conditionally accumulated sum.  An accumulator is set to zero at step 0, and at each step j it adds a term B j
  when a condition p j holds and is left alone otherwise.  After step n it equals the sum, over the steps j ≤ n, of the
  terms whose condition holds.  Only the commutative-monoid laws of addition are used, so the statement holds in any
  additive commutative monoid — in particular for the extended reals, where addition does not cancel.
-/
import Mathlib.Algebra.BigOperators.Fin
import Mathlib.Algebra.BigOperators.Intervals

namespace Cert.CondAcc

open scoped BigOperators

/-- Steps numbered by the natural numbers: after step n the accumulator is the sum over j ≤ n of the terms whose
    condition holds. -/
theorem condAcc_range {M : Type*} [AddCommMonoid M] (B : ℕ → M) (p : ℕ → Prop) [DecidablePred p] (e : ℕ → M)
    (h0 : e 0 = if p 0 then 0 + B 0 else 0) (hs : ∀ j, e (j + 1) = if p (j + 1) then e j + B (j + 1) else e j) (n : ℕ) :
    e n = ∑ j ∈ Finset.range (n + 1), (if p j then B j else 0) := by
  induction n with
  | zero =>
    rw [h0, Finset.sum_range_one]
    by_cases hp : p 0
    · rw [if_pos hp, if_pos hp, zero_add]
    · rw [if_neg hp, if_neg hp]
  | succ n ih =>
    rw [hs n, Finset.sum_range_succ _ (n + 1), ← ih]
    by_cases hp : p (n + 1)
    · rw [if_pos hp, if_pos hp]
    · rw [if_neg hp, if_neg hp, add_zero]

/-- Steps numbered 0 … N: after the last step the accumulator is the sum over all steps of the terms whose condition
    holds. -/
theorem condAcc_fin {M : Type*} [AddCommMonoid M] (N : ℕ) (B : Fin (N + 1) → M) (p : Fin (N + 1) → Prop) [DecidablePred p]
    (e : Fin (N + 1) → M)
    (h0 : e 0 = if p 0 then 0 + B 0 else 0)
    (hs : ∀ j : Fin N, e j.succ = if p j.succ then e j.castSucc + B j.succ else e j.castSucc) :
    e (Fin.last N) = ∑ j : Fin (N + 1), (if p j then B j else 0) := by
  induction N with
  | zero =>
    rw [Fin.sum_univ_one]
    show e 0 = _
    rw [h0]
    by_cases hp : p 0
    · rw [if_pos hp, if_pos hp, zero_add]
    · rw [if_neg hp, if_neg hp]
  | succ N ih =>
    have ih' := ih (fun j => B j.castSucc) (fun j => p j.castSucc) (fun j => e j.castSucc) h0
      (fun j => by
        have h := hs j.castSucc
        rw [Fin.succ_castSucc] at h
        exact h)
    have hl := hs (Fin.last N)
    rw [Fin.succ_last] at hl
    rw [hl, Fin.sum_univ_castSucc]
    have ih'' : e (Fin.last N).castSucc = ∑ j : Fin (N + 1), (if p j.castSucc then B j.castSucc else 0) := ih'
    rw [← ih'']
    by_cases hp : p (Fin.last (N + 1))
    · rw [if_pos hp, if_pos hp]
    · rw [if_neg hp, if_neg hp, add_zero]

end Cert.CondAcc
-- ==== Proof.LibSumBlocks.lean ====
/-
  Regrouping a finite sum into consecutive blocks, in any additive commutative monoid (used at the extended
  reals, where addition is commutative and associative although it is not cancellative): a sum over
  `a * b` consecutive positions is the sum over `a` blocks of the sums over the `b` positions of each
  block, and a sum over four blocks is the left-to-right accumulation `(((0 + s₀) + s₁) + s₂) + s₃`.
  Nothing here needs the summands to be finite.
-/
import Mathlib.Algebra.BigOperators.Fin
import Mathlib.Logic.Equiv.Fin.Basic

namespace Cert.SumBlocks

open scoped BigOperators

/-- A sum over the positions `0 … a*b-1` is the sum over blocks `k < a` of the sums over the offsets
    `j < b` inside block `k`, position `k * b + j`. -/
theorem sum_blocks {M : Type*} [AddCommMonoid M] (a b : ℕ) (f : ℕ → M) :
    ∑ i : Fin (a * b), f i.val = ∑ k : Fin a, ∑ j : Fin b, f (k.val * b + j.val) := by
  rw [← Fintype.sum_prod_type' (f := fun (k : Fin a) (j : Fin b) => f (k.val * b + j.val))]
  refine (Fintype.sum_equiv finProdFinEquiv _ _ ?_).symm
  rintro ⟨k, j⟩
  show f (k.val * b + j.val) = f (finProdFinEquiv (k, j)).val
  congr 1
  simp only [finProdFinEquiv_apply_val]
  rw [Nat.mul_comm, Nat.add_comm]

/-- Four blocks accumulated from zero, left to right, are their sum. -/
theorem acc_four {M : Type*} [AddCommMonoid M] (s : Fin 4 → M) :
    (((0 + s 0) + s 1) + s 2) + s 3 = ∑ k : Fin 4, s k := by
  rw [Fin.sum_univ_four, zero_add]

end Cert.SumBlocks
-- ==== Proof.EnergyBlocks.lean ====
/-
  The energy regrouped by blocks, and the facts about one pair that the two programs' comparison rests on.

  A pair (i, j) with j ≤ i never counts: the signed comparison of the two particle numbers' words answers "no", so the
  pair's contribution is the zero word.  Hence a 512 × 512 block of pairs whose column block lies strictly before its row
  block sums to zero.  The energy, a sum over 8192 × 8192 ordered pairs, is regrouped as the sum over 16 × 16 such blocks
  (8192 = 16 · 512 on each axis; only commutativity and associativity of addition are used, never finiteness of a term),
  and the blocks below the diagonal are dropped.

  For real coordinates the squared distance is a nonnegative real d, and for such d the test √d < 2.5 and the test
  d < 6.25 give the same bit.
-/
import proofs.«101726_j13400297963575_1_alg».proof.Proof.PairEnergy
import proofs.«101726_j13400297963575_1_alg».proof.Proof.LibSumBlocks
import Idealize.ShloMosaic.PureOps.Ideal.Laws

noncomputable section

open scoped BigOperators

namespace Cert.LJ

open Idealize.ShloMosaic

/-- For particle numbers j ≤ i below 8192 the signed comparison "i before j" of their 32-bit words is false. -/
theorem slt_false_of_le (i j : Fin 8192) (h : j ≤ i) :
    IntOp.cmpi .slt (BitVec.ofNat 32 i.val) (BitVec.ofNat 32 j.val) = 0#1 := by
  have hi := i.isLt
  have hj := j.isLt
  have hle : j.val ≤ i.val := h
  have : (BitVec.ofNat 32 i.val).slt (BitVec.ofNat 32 j.val) = false := by
    rw [Bool.eq_false_iff, ne_eq, BitVec.slt_iff_toInt_lt]
    have e1 := BitVec.toInt_eq_toNat_cond (BitVec.ofNat 32 i.val)
    have e2 := BitVec.toInt_eq_toNat_cond (BitVec.ofNat 32 j.val)
    rw [BitVec.toNat_ofNat] at e1 e2
    omega
  simp only [IntOp.cmpi, this]
  rfl

/-- A pair whose second particle is not numbered after the first contributes nothing. -/
theorem pairE_eq_zero_of_le (x : Fin 8192 → Fin 3 → EReal) (i j : Fin 8192) (h : j ≤ i) : pairE x i j = 0 := by
  unfold pairE pairOf pairTerm counted
  rw [slt_false_of_le i j h]
  have : IntOp.andi (0#1) (Ideal.cmp .olt (sqDist (x i 0) (x i 1) (x i 2) (x j 0) (x j 1) (x j 2)) (Ideal.ofBits .f32 0x40C80000#32)) = 0#1 := by
    simp [IntOp.andi]
  rw [this]
  simp only [Scalar.select]
  rw [if_neg (by decide), Ideal.ofBits_zero_f32]

/-- A block whose second block index is below its first holds only pairs that do not count. -/
theorem blockSum_eq_zero_of_lt (x : Fin 8192 → Fin 3 → EReal) (ib jb : Fin 16) (h : jb < ib) : blockSum x ib jb = 0 := by
  unfold blockSum
  refine Finset.sum_eq_zero (fun r _ => Finset.sum_eq_zero (fun c _ => ?_))
  apply pairE_eq_zero_of_le
  have hlt : jb.val < ib.val := h
  have hc := c.isLt
  show (inBlock jb c).val ≤ (inBlock ib r).val
  simp only [inBlock]
  omega

/-- A sum over the 8192 particles is the sum over the 16 blocks of the sums over each block's 512 rows. -/
theorem sum_particles_eq_blocks (g : Fin 8192 → EReal) :
    ∑ i : Fin 8192, g i = ∑ ib : Fin 16, ∑ r : Fin 512, g (inBlock ib r) := by
  have key := Cert.SumBlocks.sum_blocks (M := EReal) 16 512 (fun n => if h : n < 8192 then g ⟨n, h⟩ else 0)
  have lhs : ∑ i : Fin 8192, g i = ∑ i : Fin (16 * 512), (fun n => if h : n < 8192 then g ⟨n, h⟩ else 0) i.val := by
    refine Finset.sum_congr rfl (fun i _ => ?_)
    have hi : i.val < 8192 := i.isLt
    simp only [dif_pos hi]
  rw [lhs, key]
  refine Finset.sum_congr rfl (fun ib _ => Finset.sum_congr rfl (fun r _ => ?_))
  have hb := ib.isLt
  have hr := r.isLt
  have hlt : ib.val * 512 + r.val < 8192 := by omega
  simp only [dif_pos hlt]
  congr 1
  apply Fin.ext
  simp only [inBlock]
  omega

/-- The energy regrouped: the 8192 × 8192 ordered pairs fall into 16 × 16 square blocks of 512 × 512 pairs. -/
theorem energy_eq_blocks (x : Fin 8192 → Fin 3 → EReal) :
    energy x = ∑ ib : Fin 16, ∑ jb : Fin 16, blockSum x ib jb := by
  unfold energy blockSum
  rw [sum_particles_eq_blocks (fun i => ∑ j : Fin 8192, pairE x i j)]
  refine Finset.sum_congr rfl (fun ib _ => ?_)
  have inner : ∀ r : Fin 512, ∑ j : Fin 8192, pairE x (inBlock ib r) j
      = ∑ jb : Fin 16, ∑ c : Fin 512, pairE x (inBlock ib r) (inBlock jb c) :=
    fun r => sum_particles_eq_blocks (fun j => pairE x (inBlock ib r) j)
  rw [Finset.sum_congr rfl (fun r _ => inner r)]
  exact Finset.sum_comm

/-- The blocks strictly below the diagonal vanish, so only those with ib ≤ jb remain. -/
theorem energy_eq_upper (x : Fin 8192 → Fin 3 → EReal) :
    energy x = ∑ ib : Fin 16, ∑ jb : Fin 16, (if ib ≤ jb then blockSum x ib jb else 0) := by
  rw [energy_eq_blocks]
  refine Finset.sum_congr rfl (fun ib _ => Finset.sum_congr rfl (fun jb _ => ?_))
  by_cases h : ib ≤ jb
  · rw [if_pos h]
  · rw [if_neg h]
    exact blockSum_eq_zero_of_lt x ib jb (not_le.mp h)

/-- The squared distance of two points with real coordinates is a nonnegative real. -/
theorem sqDist_real (a0 a1 a2 b0 b1 b2 : ℝ) :
    ∃ d : ℝ, 0 ≤ d ∧ sqDist (a0 : EReal) a1 a2 b0 b1 b2 = (d : EReal) := by
  refine ⟨(a0 - b0) * (a0 - b0) + (a1 - b1) * (a1 - b1) + (a2 - b2) * (a2 - b2), ?_, ?_⟩
  · have h0 := mul_self_nonneg (a0 - b0)
    have h1 := mul_self_nonneg (a1 - b1)
    have h2 := mul_self_nonneg (a2 - b2)
    linarith
  · unfold sqDist
    rw [← EReal.coe_sub, ← EReal.coe_sub, ← EReal.coe_sub, ← EReal.coe_mul, ← EReal.coe_mul, ← EReal.coe_mul,
      ← EReal.coe_add, ← EReal.coe_add]

/-- The word 0x40200000 denotes 5/2. -/
theorem ofBits_five_halves : Ideal.ofBits .f32 0x40200000#32 = ((5 / 2 : ℝ) : EReal) := by
  simp [Ideal.ofBits, Ideal.ieee, -EReal.coe_mul]; norm_num

/-- The word 0x40C80000 denotes 25/4. -/
theorem ofBits_twentyfive_quarters : Ideal.ofBits .f32 0x40C80000#32 = ((25 / 4 : ℝ) : EReal) := by
  simp [Ideal.ofBits, Ideal.ieee, -EReal.coe_mul]; norm_num

/-- For a nonnegative real d, √d < 5/2 exactly when d < 25/4: comparing the distance with the cutoff radius and the
    squared distance with the squared radius give the same bit. -/
theorem cutoff_sqrt (d : ℝ) (hd : 0 ≤ d) :
    Ideal.cmp .olt (Ideal.sqrt (d : EReal)) (Ideal.ofBits .f32 0x40200000#32)
      = Ideal.cmp .olt (d : EReal) (Ideal.ofBits .f32 0x40C80000#32) := by
  rw [ofBits_five_halves, ofBits_twentyfive_quarters]
  have hs : Ideal.sqrt (d : EReal) = ((Real.sqrt d : ℝ) : EReal) := by
    show (if d < 0 then (⊥ : EReal) else ((Real.sqrt d : ℝ) : EReal)) = _
    rw [if_neg (not_lt.mpr hd)]
  rw [hs]
  unfold Ideal.cmp
  simp only [EReal.coe_lt_coe_iff]
  have hiff : Real.sqrt d < 5 / 2 ↔ d < 25 / 4 := by
    rw [Real.sqrt_lt' (by norm_num)]
    norm_num
  simp only [hiff]

end Cert.LJ

end
-- ==== Proof.KernelEnergy.lean ====
/-
  The kernel's result is the energy.  Within row block i the accumulator's entry (0, 0) starts at zero and gains the
  total of block (i, j) for every j ≥ i, so after column block 15 it is the sum of those totals; the output array's row
  i holds it; the operations after the kernel add the sixteen rows' entries; and since a pair whose second particle is
  not numbered after its first contributes nothing, the blocks below the diagonal are not missed: the sum over the
  blocks on or above the diagonal is the sum over all ordered pairs.
-/
import proofs.«101726_j13400297963575_1_alg».proof.Proof.AccEntry
import proofs.«101726_j13400297963575_1_alg».proof.Proof.OutputArray
import proofs.«101726_j13400297963575_1_alg».proof.Proof.LibCondAcc
import proofs.«101726_j13400297963575_1_alg».proof.Proof.EnergyBlocks

set_option maxRecDepth 16384

noncomputable section

open scoped BigOperators

namespace Cert.KernelIdeal.Energy

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Body Cert.KernelIdeal.BlockTotal Cert.KernelIdeal.BlockInputs Cert.LJ

variable (m : (ℓ : Loc nD τ sig) → Buf (Elt Ideal) ℓ) (ρ : Dev nD → PrngReg)

/-- The configuration the program is run on: coordinate k of particle p. -/
def conf (c : Dev nD) : Fin 8192 → Fin 3 → EReal := fun p k => m ((c : Thread nD τ).loc main_arg0) (ix2 p k)

/-- Entry (0, 0) of the accumulator after point `t`, from the entry before: zero (plus the block's total, in row 0) at
    the first column block; the block's total added on or above the diagonal; unchanged below it. -/
theorem step_entry (c : Dev nD) (t : Fin cfg0.N) (s : Vec Ideal S8x128 .f32) :
    stepAcc m c t s (ix2 0 0)
      = if t.val % 16 = 0 then (if t.val / 16 ≤ t.val % 16 then 0 + blockSum (conf m c) (rowBlock t) (colBlock t) else 0)
        else if t.val / 16 ≤ t.val % 16 then s (ix2 0 0) + blockSum (conf m c) (rowBlock t) (colBlock t) else s (ix2 0 0) := by
  unfold stepAcc
  by_cases h1 : t.val % 16 = 0
  · rw [dif_pos h1, if_pos h1]
    by_cases h2 : t.val / 16 ≤ t.val % 16
    · rw [dif_pos h2, if_pos h2]
      exact entryA c (grid0.coords t) _ _ _ _ _ _ _ _ _ _ _ (iblk m c 0 t) (iblk m c 1 t) (conf m c) (rowBlock t) (colBlock t) (coords_row t) (coords_col t) (iblk0_apply m c t) (iblk1_apply m c t) accV accV.junk
    · rw [dif_neg h2, if_neg h2]
      exact entryB c (grid0.coords t) _ _ _ _ _ _ _ _ _ _ _ (iblk m c 0 t) (iblk m c 1 t) accV accV.junk
  · rw [dif_neg h1, if_neg h1]
    by_cases h2 : t.val / 16 ≤ t.val % 16
    · rw [dif_pos h2, if_pos h2]
      by_cases h3 : t.val % 16 = 15
      · rw [dif_pos h3]
        exact entryE c (grid0.coords t) _ _ _ _ _ _ _ _ _ _ _ (iblk m c 0 t) (iblk m c 1 t) s (conf m c) (rowBlock t) (colBlock t) (coords_row t) (coords_col t) (iblk0_apply m c t) (iblk1_apply m c t)
      · rw [dif_neg h3]
        exact entryC c (grid0.coords t) _ _ _ _ _ _ _ _ _ _ _ (iblk m c 0 t) (iblk m c 1 t) s (conf m c) (rowBlock t) (colBlock t) (coords_row t) (coords_col t) (iblk0_apply m c t) (iblk1_apply m c t)
    · rw [dif_neg h2, if_neg h2]

/-- At the last column block the output block's entry (0, 0, 0) is the accumulator's entry (0, 0). -/
theorem out_entry (c : Dev nD) (t : Fin cfg0.N) (h3 : t.val % 16 = 15) (s : Vec Ideal S8x128 .f32) :
    outBlock m c t s (ix3 0 0 0) = stepAcc m c t s (ix2 0 0) := by
  have h1 : ¬t.val % 16 = 0 := by omega
  have h2 : t.val / 16 ≤ t.val % 16 := by have := lt_256 t; omega
  unfold outBlock stepAcc
  rw [dif_pos h3, dif_neg h1, dif_pos h2, dif_pos h3]
  exact outE c (grid0.coords t) _ _ _ _ _ _ _ _ _ _ _ (iblk m c 0 t) (iblk m c 1 t) s outV outV.junk

/-- Point (i, j) of the grid, numbered row by row. -/
def pt (ib j : Fin 16) : Fin cfg0.N := ⟨16 * ib.val + j.val, by have : cfg0.N = 256 := N_0; have := ib.isLt; have := j.isLt; omega⟩

theorem accAt_congr (c : Dev nD) {n n' : ℕ} (h : n = n') (hn : n < cfg0.N) (hn' : n' < cfg0.N) :
    accAt m c n hn = accAt m c n' hn' := by subst h; rfl

/-- The accumulator's entry (0, 0) after point (i, j). -/
def rowEntry (c : Dev nD) (ib j : Fin 16) : EReal := accAt m c (pt ib j).val (pt ib j).isLt (ix2 0 0)

theorem rowBlock_pt (ib j : Fin 16) : rowBlock (pt ib j) = ib :=
  Fin.ext (by show (16 * ib.val + j.val) / 16 = ib.val; have := j.isLt; omega)
theorem colBlock_pt (ib j : Fin 16) : colBlock (pt ib j) = j :=
  Fin.ext (by show (16 * ib.val + j.val) % 16 = j.val; have := j.isLt; omega)

/-- Row block i's first point: zero, plus the diagonal block's total when i = 0. -/
theorem rowEntry_zero (c : Dev nD) (ib : Fin 16) :
    rowEntry m c ib 0 = if ib.val ≤ (0 : Fin 16).val then 0 + blockSum (conf m c) ib 0 else 0 := by
  unfold rowEntry
  rw [accAt_eq, step_entry, rowBlock_pt, colBlock_pt]
  have hm : (pt ib 0).val % 16 = 0 := by show (16 * ib.val + (0 : Fin 16).val) % 16 = 0; simp
  have hd : (pt ib 0).val / 16 = ib.val := by show (16 * ib.val + (0 : Fin 16).val) / 16 = ib.val; simp
  rw [if_pos hm, hm, hd]
  rfl

/-- A later point of the row: the block's total is added exactly when the block is on or above the diagonal. -/
theorem rowEntry_succ (c : Dev nD) (ib : Fin 16) (j : Fin 15) :
    rowEntry m c ib j.succ = if ib.val ≤ j.succ.val then rowEntry m c ib j.castSucc + blockSum (conf m c) ib j.succ else rowEntry m c ib j.castSucc := by
  unfold rowEntry
  rw [accAt_eq, step_entry, rowBlock_pt, colBlock_pt]
  have hj := j.isLt
  have hi := ib.isLt
  have hv : (pt ib j.succ).val = 16 * ib.val + (j.val + 1) := rfl
  have hm : (pt ib j.succ).val % 16 = j.val + 1 := by rw [hv]; omega
  have hd : (pt ib j.succ).val / 16 = ib.val := by rw [hv]; omega
  have hz : (pt ib j.succ).val ≠ 0 := by rw [hv]; omega
  have hb : accBefore m c (pt ib j.succ).val (pt ib j.succ).isLt = accAt m c (pt ib j.castSucc).val (pt ib j.castSucc).isLt :=
    (accBefore_pos m c _ _ hz).trans (accAt_congr m c (by rw [hv]; show 16 * ib.val + (j.val + 1) - 1 = 16 * ib.val + j.val; omega) _ _)
  rw [if_neg (by rw [hm]; omega), hm, hd, hb]
  rfl

/-- After the row's last point: the totals of the row's blocks on or above the diagonal, added. -/
theorem row_total (c : Dev nD) (ib : Fin 16) :
    rowEntry m c ib (Fin.last 15) = ∑ jb : Fin 16, (if ib ≤ jb then blockSum (conf m c) ib jb else 0) := by
  rw [Cert.CondAcc.condAcc_fin 15 (fun jb => blockSum (conf m c) ib jb) (fun jb => ib.val ≤ jb.val) (fun j => rowEntry m c ib j)
    (rowEntry_zero m c ib) (rowEntry_succ m c ib)]
  exact Finset.sum_congr rfl fun jb _ => if_congr Iff.rfl rfl rfl

/-- What the operations after the kernel leave in the result: the energy of the configuration. -/
theorem tail_value (c : Dev nD) :
    Pipeline.afterTail₀ cfgs (dats m) 0 (V0 m) [hostOps1] c main_v4 = fun _ => energy (conf m c) := by
  unfold Pipeline.afterTail₀
  simp only [List.flatten_cons, List.flatten_nil, List.append_nil]
  rw [host_tail _ ((dats m 0 c).arrAt 2 cfg0.N) (Pipeline.withArrays_arr spec0 launch0.win.arr_inj c _ _ 2)]
  funext _
  rw [energy_eq_upper]
  refine Finset.sum_congr rfl fun ib _ => ?_
  rw [final_row m c ib 0 0, out_entry m c _ (by show (16 * ib.val + 15) % 16 = 15; omega)]
  exact (show _ = rowEntry m c ib (Fin.last 15) from (congrFun (accAt_eq m c (pt ib (Fin.last 15))) (ix2 0 0)).symm).trans (row_total m c ib)

/-- Every weakly fair execution of the idealized kernel terminates without a fault with the result at the energy of
    its argument and the argument unchanged. -/
theorem run : θ_run defs (onTc (τ := τ) (main (F := Ideal))) ⟨m, fun _ => 0, ρ⟩ (fun r => ∀ c : Dev nD,
      r.2.mem ((c.tc : Thread nD τ).loc main_v4) = (fun _ => energy (conf m c))
      ∧ r.2.mem ((c.tc : Thread nD τ).loc main_arg0) = m ((c.tc : Thread nD τ).loc main_arg0)) :=
  (θ_run defs _ _).mono (fun r h c =>
      ⟨((h c).2 main_v4 (Pipeline.mem_restRefs_of main_v4 rfl (fun w => by fin_cases w <;> decide))).trans (tail_value m c),
        ((h c).1 0).trans (((dats m 0 c).arrAt_in 0 rfl _).trans ((A_eq m c 0).trans (V_main_arg0 m c)))⟩)
    (run_main m ρ)

end Cert.KernelIdeal.Energy

end
-- ==== Proof.RefEnergy.lean ====
/-
  The reference program's result is the energy.

  The reference forms, for every ordered pair (a, b) of particles, the three coordinate differences, their squares and
  the sum d of the squares; the order bit "a is numbered before b"; the cutoff bit, which it takes from √d < 2.5; the
  reciprocal of d (of 1 for a pair that does not count), its cube s⁶, and 4 (s⁶ s⁶ − s⁶) or 0; and adds all pairs'
  values to a zero.  Each of these is the corresponding piece of the pair contribution defined with the energy, except
  the cutoff bit, which the energy takes from d < 6.25.  For real coordinates d is a nonnegative real, for which the two
  tests agree; so pair by pair the reference's summand is the pair contribution, and the sums are equal.
-/
import proofs.«101726_j13400297963575_1_alg».proof.Proof.Gen.ReferenceIdeal.Read
import proofs.«101726_j13400297963575_1_alg».proof.Proof.EnergyBlocks

noncomputable section

open scoped BigOperators

namespace Cert.ReferenceIdeal.RefEnergy

open Cert.ReferenceIdeal Cert.ReferenceIdeal.Read Idealize.ShloMosaic Idealize.ShloMosaic.ValueIdx Cert.LJ

variable (P : (⟨S8192x3, .f32⟩ : BufTy).Contents (Elt Ideal))

/-- One coordinate's squared difference, for the pair (a, b) and the coordinate k. -/
theorem sq_diff_eq (a b : Fin 8192) (k : Fin 3) :
    val_main_v5 (F := Ideal) P (idx_main_v6 (ix2 a b) k)
      = (P (ix2 a k) - P (ix2 b k)) * (P (ix2 a k) - P (ix2 b k)) := by
  rw [val_main_v5_apply, val_main_v4_apply, val_main_v2_apply, val_main_v0_apply, val_main_v3_apply,
    val_main_v1_apply]
  simp only [Ideal.mulf_def, Ideal.subf_def]
  have i1 : idx_main_v0 (idx_main_v2 (idx_main_v6 (ix2 a b) k)) = ix2 a k :=
    funext fun d => Fin.ext (by match d with | ⟨0, _⟩ => rfl | ⟨1, _⟩ => rfl)
  have i2 : idx_main_v1 (idx_main_v3 (idx_main_v6 (ix2 a b) k)) = ix2 b k :=
    funext fun d => Fin.ext (by match d with | ⟨0, _⟩ => rfl | ⟨1, _⟩ => rfl)
  rw [i1, i2]

/-- The reference's sum of the three squared differences is the squared distance of particles a and b. -/
theorem v6_eq (a b : Fin 8192) :
    val_main_v6 (F := Ideal) P (ix2 a b)
      = sqDist (P (ix2 a 0)) (P (ix2 a 1)) (P (ix2 a 2)) (P (ix2 b 0)) (P (ix2 b 1)) (P (ix2 b 2)) := by
  rw [val_main_v6_apply, val_main_cst_apply, Ideal.ofBits_def, Ideal.ofBits_zero_f32, zero_add, Fin.sum_univ_three,
    sq_diff_eq, sq_diff_eq, sq_diff_eq]
  rfl

/-- The reference's order bit compares the two particle numbers' words. -/
theorem v13_eq (a b : Fin 8192) :
    val_main_v13 (F := Ideal) (ix2 a b) = IntOp.cmpi .slt (BitVec.ofNat 32 a.val) (BitVec.ofNat 32 b.val) := by
  rw [val_main_v13_apply, val_main_v11_apply, val_main_v9_apply, val_main_v8_apply, val_main_v12_apply,
    val_main_v10_apply, val_main_v8_apply]

/-- The reference's pair value is the pair term of its own count bit and squared distance. -/
theorem v26_eq_pairTerm (a b : Fin 8192) :
    val_main_v26 (F := Ideal) P (ix2 a b)
      = pairTerm (val_main_v16 (F := Ideal) P (ix2 a b)) (val_main_v6 (F := Ideal) P (ix2 a b)) := by
  simp only [val_main_v26_apply, val_main_v25_apply, val_main_v24_apply, val_main_cst_3_apply, val_main_v23_apply,
    val_main_v22_apply, val_main_v21_apply, val_main_v20_apply, val_main_v19_apply, val_main_v18_apply,
    val_main_cst_2_apply, val_main_v17_apply, val_main_call0_v0_apply, val_main_cst_1_apply,
    val_main_call1_v0_apply, val_main_cst_4_apply, Ideal.mulf_def, Ideal.subf_def, Ideal.hostDivf_def,
    Ideal.ofBits_def]
  rfl

/-- For real coordinates the reference's count bit, which tests √d < 2.5, is the count bit that tests d < 6.25. -/
theorem v16_eq (hP : ∀ idx, ∃ r : ℝ, P idx = (r : EReal)) (a b : Fin 8192) :
    val_main_v16 (F := Ideal) P (ix2 a b)
      = counted (IntOp.cmpi .slt (BitVec.ofNat 32 a.val) (BitVec.ofNat 32 b.val))
          (val_main_v6 (F := Ideal) P (ix2 a b)) := by
  rw [val_main_v16_apply, v13_eq, val_main_v15_apply, val_main_v7_apply, val_main_v14_apply, val_main_cst_0_apply]
  simp only [Ideal.cmpf_def, Ideal.hostUnary_sqrt_def, Ideal.ofBits_def]
  unfold counted
  rw [v6_eq]
  obtain ⟨a0, h0⟩ := hP (ix2 a 0)
  obtain ⟨a1, h1⟩ := hP (ix2 a 1)
  obtain ⟨a2, h2⟩ := hP (ix2 a 2)
  obtain ⟨b0, g0⟩ := hP (ix2 b 0)
  obtain ⟨b1, g1⟩ := hP (ix2 b 1)
  obtain ⟨b2, g2⟩ := hP (ix2 b 2)
  rw [h0, h1, h2, g0, g1, g2]
  obtain ⟨d, hd, hdeq⟩ := sqDist_real a0 a1 a2 b0 b1 b2
  rw [hdeq, cutoff_sqrt d hd]

/-- Pair by pair, the reference's summand is the pair's contribution to the energy. -/
theorem v26_eq_pairE (hP : ∀ idx, ∃ r : ℝ, P idx = (r : EReal)) (a b : Fin 8192) :
    val_main_v26 (F := Ideal) P (ix2 a b) = pairE (fun p k => P (ix2 p k)) a b := by
  rw [v26_eq_pairTerm, v16_eq P hP, v6_eq]
  rfl

/-- The reference's result, at its one index, is the energy of the configuration it is given. -/
theorem ref_energy (P : (⟨Cert.ReferenceIdeal.S8192x3, .f32⟩ : BufTy).Contents (Elt Ideal))
    (hP : ∀ idx, ∃ a : ℝ, P idx = (a : EReal)) (i : Cert.ReferenceIdeal.S_.Idx) :
    Cert.ReferenceIdeal.Read.val_main_v27 (F := Ideal) P i = Cert.LJ.energy (fun p k => P (ValueIdx.ix2 p k)) := by
  rw [val_main_v27_apply, val_main_cst_5_apply, Ideal.ofBits_def, Ideal.ofBits_zero_f32, zero_add, ValueIdx.sum_idx2]
  unfold energy
  refine Finset.sum_congr rfl (fun a _ => Finset.sum_congr rfl (fun b _ => ?_))
  exact v26_eq_pairE P hP a b

end Cert.ReferenceIdeal.RefEnergy

end
-- ==== Proof.RealInputs.lean ====
/-
  The precondition makes every coordinate a real number.

  The precondition takes each entry's absolute value, asks whether it is below the word of +∞, and demands that every
  answer be "yes".  The word of +∞ denotes the top of the extended reals, and |x| = max x (−x) is below the top exactly
  when x is neither the top nor the bottom — that is, when x is a real number.
-/
import proofs.«101726_j13400297963575_1_alg».proof.Pre_finite_inputs
import proofs.«101726_j13400297963575_1_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.RealInputs

open Idealize.ShloMosaic Cert.Pre_finite_inputs

/-- The result of a reduction over every axis has one index. -/
instance : Subsingleton Cert.Pre_finite_inputs.S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ a : ℝ, x = (a : EReal) := by
  induction x using EReal.rec with
  | bot => exact absurd h (by simp)
  | coe a => exact ⟨a, rfl⟩
  | top => exact absurd h (by simp)

/-- Under the precondition every entry of the array is a real number. -/
theorem real_of_pre [Cert.Pre_finite_inputs.Facts] (P : FVec Ideal Cert.Pre_finite_inputs.S8192x3 .f32)
    (h : Cert.Pre_finite_inputs.fn (F := Ideal) P = fun _ => 1#1) : ∀ idx, ∃ a : ℝ, P idx = (a : EReal) := by
  intro idx
  have h0 := congrFun h ValueIdx.ix0
  dsimp only [Cert.Pre_finite_inputs.fn] at h0
  have he := Host.reduce_andi_all _ _ _ _ _ h0 idx
  rw [ValueIdx.cmpf_apply,
    broadcastInDim_apply _ Facts.bcast_S_S8192x3 _ idx ValueIdx.ix0 (fun a => a.elim0)] at he
  have he' : Ideal.cmp .olt (max (P idx) (-(P idx))) (Ideal.ofBits .f32 0x7F800000#32) = 1#1 := he
  rw [ofBits_inf] at he'
  have hb : BitVec.ofBool (decide (max (P idx) (-(P idx)) < ⊤)) = 1#1 := he'
  apply real_of_abs_lt_top
  by_contra hn
  rw [decide_eq_false hn] at hb
  exact absurd hb (by decide)

end Cert.RealInputs

end
-- ==== Proof.lean ====
/-
  A Lennard-Jones energy of 8192 particles, computed by a tiled kernel, equals the energy computed all at once.

  Each ordered pair (i, j) of particles contributes 4 (r⁻¹² − r⁻⁶) when i is numbered before j and the pair is closer
  than the cutoff, and nothing otherwise (Proof/PairEnergy.lean).  The kernel walks a 16 × 16 grid of blocks of
  512 × 512 pairs, skips the blocks strictly below the diagonal, adds each remaining block's total to an accumulator it
  carries along a row of the grid, writes the accumulator out at the end of each row, and the sixteen row totals are
  added afterwards.  The reference forms all 8192 × 8192 contributions and adds them.

  Over the extended reals the two agree: a pair whose second particle is not numbered after the first contributes
  exactly zero, so the skipped blocks are zero; regrouping a finite sum of extended reals into blocks is free
  (addition is commutative and associative there); and the one place the two texts differ — the reference compares the
  distance with 2.5 where the kernel compares the squared distance with 6.25 — is the same comparison for a squared
  distance that is a nonnegative real, which the finiteness of the input guarantees.

  The pieces: Proof/Cases*, Run*, Carried* — the kernel runs to the end at every grid point, faults nowhere and leaves
  its argument alone, with the accumulator's contents tracked point by point (once for the word-level kernel, once for
  the idealized one); Proof/BlockTotal, BlockInputs, AccEntry, OutputArray, KernelEnergy — the idealized kernel's result
  is the energy; Proof/RefEnergy, RealInputs, EnergyBlocks — the reference's result is the energy.
-/
import proofs.«101726_j13400297963575_1_alg».proof.Defs
import proofs.«101726_j13400297963575_1_alg».proof.Proof.Gen.Kernel
import proofs.«101726_j13400297963575_1_alg».proof.Proof.Gen.KernelIdeal
import proofs.«101726_j13400297963575_1_alg».proof.Proof.Gen.ReferenceIdeal
import proofs.«101726_j13400297963575_1_alg».proof.Proof.Gen.Pre_finite_inputs
import proofs.«101726_j13400297963575_1_alg».proof.Proof.Gen.ReferenceIdeal.Run
import proofs.«101726_j13400297963575_1_alg».proof.Proof.Gen.ReferenceIdeal.Read
import proofs.«101726_j13400297963575_1_alg».proof.Proof.CarriedBits
import proofs.«101726_j13400297963575_1_alg».proof.Proof.CarriedIdeal
import proofs.«101726_j13400297963575_1_alg».proof.Proof.KernelEnergy
import proofs.«101726_j13400297963575_1_alg».proof.Proof.RefEnergy
import proofs.«101726_j13400297963575_1_alg».proof.Proof.RealInputs
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its argument unchanged. -/
theorem frame_kernel : Cert.frame_Kernel := fun m ρ _ => Cert.Kernel.Body.frame m ρ

/-- So does the idealized kernel. -/
theorem frame_kernelIdeal : Cert.frame_KernelIdeal := fun m ρ _ => Cert.KernelIdeal.Body.frame m ρ

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- Both programs end with the energy of the configuration they are given: the kernel by `KernelEnergy.run`, the
    reference by `ref_energy`, for which the input's finiteness makes every coordinate a real number. -/
theorem algebraic : Cert.algebraic_KernelIdeal_ReferenceIdeal := by
  intro m ρ m' ρ' hpre hagree
  refine ⟨fun c => fun _ => Cert.LJ.energy (Cert.KernelIdeal.Energy.conf m c), Cert.KernelIdeal.Energy.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, hagree c]
  funext i
  exact Cert.ReferenceIdeal.RefEnergy.ref_energy _ (Cert.RealInputs.real_of_pre _ (hpre c)) i

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
